-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x1024 : Shape := ⟨2, ![1024, 1024]⟩
abbrev S2048x1024 : Shape := ⟨2, ![2048, 1024]⟩
abbrev S4096x2048 : Shape := ⟨2, ![4096, 2048]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S1024x1024 .f32) (main_arg2 : FVec F S2048x1024 .f32) (main_arg3 : FVec F S4096x2048 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S8192x4096 : Shape := ⟨2, ![8192, 4096]⟩
abbrev S1024x1024 : Shape := ⟨2, ![1024, 1024]⟩
abbrev S2048x1024 : Shape := ⟨2, ![2048, 1024]⟩
abbrev S4096x2048 : Shape := ⟨2, ![4096, 2048]⟩
abbrev S4096 : Shape := ⟨1, ![4096]⟩
abbrev S_ : Shape := ⟨0, ![]⟩
abbrev S4096x1024 : Shape := ⟨2, ![4096, 1024]⟩
abbrev S4096x4096 : Shape := ⟨2, ![4096, 4096]⟩
abbrev S1x4096 : Shape := ⟨2, ![1, 4096]⟩
abbrev S1x1024 : Shape := ⟨2, ![1, 1024]⟩

abbrev nBuf : Space → Nat
  | .hbm => 21
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S2048x1024, .f32⟩
  | .hbm, ⟨3, _⟩ => ⟨S4096x2048, .f32⟩
  | .hbm, ⟨4, _⟩ => ⟨S4096, .f32⟩
  | .hbm, ⟨5, _⟩ => ⟨S1024x1024, .bf16⟩
  | .hbm, ⟨6, _⟩ => ⟨S_, .i32⟩
  | .hbm, ⟨7, _⟩ => ⟨S_, .bf16⟩
  | .hbm, ⟨8, _⟩ => ⟨S4096x1024, .bf16⟩
  | .hbm, ⟨9, _⟩ => ⟨S2048x1024, .bf16⟩
  | .hbm, ⟨10, _⟩ => ⟨S_, .i32⟩
  | .hbm, ⟨11, _⟩ => ⟨S_, .bf16⟩
  | .hbm, ⟨12, _⟩ => ⟨S4096x1024, .bf16⟩
  | .hbm, ⟨13, _⟩ => ⟨S4096x2048, .bf16⟩
  | .hbm, ⟨14, _⟩ => ⟨S_, .i32⟩
  | .hbm, ⟨15, _⟩ => ⟨S_, .bf16⟩
  | .hbm, ⟨16, _⟩ => ⟨S4096x2048, .bf16⟩
  | .hbm, ⟨17, _⟩ => ⟨S4096x4096, .bf16⟩
  | .hbm, ⟨18, _⟩ => ⟨S1x4096, .f32⟩
  | .hbm, ⟨19, _⟩ => ⟨S8192x4096, .bf16⟩
  | .hbm, ⟨20, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  pads_S1024x1024_S4096x1024_030720_000 : S1024x1024.Pads (![0, 0] : Fin 2 → Nat) ![3072, 0] ![0, 0] S4096x1024
  h_S_ : 0 < S_.numel
  pads_S2048x1024_S4096x1024_020480_000 : S2048x1024.Pads (![0, 0] : Fin 2 → Nat) ![2048, 0] ![0, 0] S4096x1024
  pads_S4096x2048_S4096x2048_000_000 : S4096x2048.Pads (![0, 0] : Fin 2 → Nat) ![0, 0] ![0, 0] S4096x2048
  concatenates_S4096x1024_S4096x1024_S4096x2048_S4096x4096_d1 : Shape.Concatenates [S4096x1024, S4096x1024, S4096x2048] S4096x4096 1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1024x1024 : Shape := ⟨2, ![1024, 1024]⟩
abbrev S2048x1024 : Shape := ⟨2, ![2048, 1024]⟩
abbrev S4096x2048 : Shape := ⟨2, ![4096, 2048]⟩
abbrev S4096 : Shape := ⟨1, ![4096]⟩
abbrev S_ : Shape := ⟨0, ![]⟩
abbrev S4096x1024 : Shape := ⟨2, ![4096, 1024]⟩
abbrev S4096x4096 : Shape := ⟨2, ![4096, 4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S2048x1024, .f32⟩
  | .hbm, ⟨3, _⟩ => ⟨S4096x2048, .f32⟩
  | .hbm, ⟨4, _⟩ => ⟨S4096, .f32⟩
  | .hbm, ⟨5, _⟩ => ⟨S_, .i32⟩
  | .hbm, ⟨6, _⟩ => ⟨S_, .f32⟩
  | .hbm, ⟨7, _⟩ => ⟨S4096x1024, .f32⟩
  | .hbm, ⟨8, _⟩ => ⟨S_, .i32⟩
  | .hbm, ⟨9, _⟩ => ⟨S_, .f32⟩
  | .hbm, ⟨10, _⟩ => ⟨S4096x1024, .f32⟩
  | .hbm, ⟨11, _⟩ => ⟨S_, .i32⟩
  | .hbm, ⟨12, _⟩ => ⟨S_, .f32⟩
  | .hbm, ⟨13, _⟩ => ⟨S4096x2048, .f32⟩
  | .hbm, ⟨14, _⟩ => ⟨S4096x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  pads_S1024x1024_S4096x1024_030720_000 : S1024x1024.Pads (![0, 0] : Fin 2 → Nat) ![3072, 0] ![0, 0] S4096x1024
  h_S_ : 0 < S_.numel
  pads_S2048x1024_S4096x1024_020480_000 : S2048x1024.Pads (![0, 0] : Fin 2 → Nat) ![2048, 0] ![0, 0] S4096x1024
  pads_S4096x2048_S4096x2048_000_000 : S4096x2048.Pads (![0, 0] : Fin 2 → Nat) ![0, 0] ![0, 0] S4096x2048
  concatenates_S4096x1024_S4096x1024_S4096x2048_S4096x4096_d1 : Shape.Concatenates [S4096x1024, S4096x1024, S4096x2048] S4096x4096 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Entry.lean ====
/-
  The program up to its one tiled region, and the blocks the region's windows stage.

  Before the region the host rounds the three weight blocks, pads each below with zeros to 4096 rows, joins them
  side by side into the 4096 × 4096 weight matrix, views the bias as a row, and rounds the activations.  `V` is what
  each buffer of a core holds when the region is entered: the fold of those operations over the launch memory.
  `iblk w t` is the block of window `w`'s array that grid point `t` stages, read off `V`.  Every input window's
  staging buffer holds that block when the body runs at `t`, whether the point fetched it or an earlier one did.
-/
import proofs.«158718_j39599598469144_2_alg».proof.Proof.Gen.KernelIdeal.Launch
import proofs.«158718_j39599598469144_2_alg».proof.Proof.Gen.KernelIdeal.Skeleton
import proofs.«158718_j39599598469144_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The stretches of host operations before the region, in program order. -/
abbrev prefixOps : List (List (HloOp τ sig (Elt F))) :=
  [hostOps0, hostOps0_1, hostOps0_2, hostOps0_3, hostOps0_4, hostOps0_5, hostOps0_6]

/-- What core `c`'s buffer `b` holds when the region is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- An operation with several operands writes its result buffer only. -/
theorem nary_writes {n : Nat} (xs : Fin n → Ref sig .tc) (y : Ref sig .tc)
    (f : ((k : Fin n) → (xs k).ty.Contents (Elt F)) → y.ty.Contents (Elt F)) (hxs hy) :
    (StableHlo.nary xs y f hxs hy : HloOp τ sig (Elt F)).writes = {(y : DevRef τ sig)} := rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program reduces to its region entered with every buffer at `V`: the host stretches run first, each touching
    unscoped buffers only and allocating nothing. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes an argument buffer: the region finds each as launched. -/
theorem V_arg (c : Dev nD) (b : Ref sig .tc)
    (hb : b = main_arg0 ∨ b = main_arg1 ∨ b = main_arg2 ∨ b = main_arg3 ∨ b = main_arg4) :
    V m c b = m ((c : Thread nD τ).loc b) := by
  rcases hb with rfl | rfl | rfl | rfl | rfl <;>
  exact StableHlo.after_of_forall_not_mem (b := Proc.devRef .tc _) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.reshape_writes, nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place (the three input windows in turn). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Fr

end
-- ==== Proof.Runs.lean ====
/-
  The kernel body run once per way its three conditionals can fall on the grid.

  The grid is 8 × 4 × 4: a row block `i`, a column block `j`, and a stretch `k` of the contraction axis, `k` innermost.
  The body (1) zeroes the accumulator when `k = 0`; (2) adds the product of the staged activation and weight blocks to
  the accumulator when the weight block is not structurally zero, that is when `2 ≤ j` or `k ≤ j`; (3) when `k = 3`
  stores accumulator plus bias row into the output block.  Five combinations occur: first stretch (always adding),
  a middle stretch that adds, a middle stretch that skips, the last stretch adding, the last stretch skipping.
  For each, the body's run is stated as a weakest-precondition triple over whole staging buffers; the stores each
  buffer ends with are found by running the body symbolically.
-/
import proofs.«158718_j39599598469144_2_alg».proof.Proof.Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, from the grid coordinates, and where they hold -/

/-- The accumulator is reset: the contraction stretch is the first. -/
abbrev cond1 (i : grid0.Coords) : Prop := (Scalar.cmpi .ne (Scalar.extui (Scalar.cmpi .eq (BitVec.ofNat 32 (i 2).val) 0#32)) 0#32) = 1#1
/-- The weight block is not structurally zero: the column block is one of the full-height ones, or the stretch is
    within the column block's height. -/
abbrev cond2 (i : grid0.Coords) : Prop := (Scalar.cmpi .ne (Scalar.extui (Scalar.ori (Scalar.cmpi .sge (BitVec.ofNat 32 (i 1).val) 2#32) (Scalar.cmpi .sle (BitVec.ofNat 32 (i 2).val) (BitVec.ofNat 32 (i 1).val)))) 0#32) = 1#1
/-- The output block is written: the contraction stretch is the last. -/
abbrev cond3 (i : grid0.Coords) : Prop := k0_cond3 i = 1#1

/-- Point `n` of the grid (row-major, stretch innermost) adds its product: column block `(n / 4) % 4`, stretch `n % 4`. -/
abbrev addsAt (n : ℕ) : Prop := 2 ≤ (n / 4) % 4 ∨ n % 4 ≤ (n / 4) % 4

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ addsAt t.val :=
  (by decide +kernel : ∀ t : Fin grid0.N, cond2 (grid0.coords t) ↔ addsAt t.val)
theorem hcond3 : ∀ t : Fin cfg0.N, cond3 (grid0.coords t) ↔ t.val % 4 = 3 :=
  (by decide +kernel : ∀ t : Fin grid0.N, cond3 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from the last stretch the output window is idle and not written back. -/
theorem idleAt3 : ∀ t : Fin cfg0.N, ¬cond3 (grid0.coords t) → cfg0.idle 3 (grid0.coords t) = true := by decide +kernel
theorem noFlush3 : ∀ t : Fin cfg0.N, ¬cond3 (grid0.coords t) → (cfg0.win 3).flush t = false := by decide +kernel
/-- At the last stretch it is live. -/
theorem liveAt3 : ∀ t : Fin cfg0.N, cond3 (grid0.coords t) → cfg0.idle 3 (grid0.coords t) = false := by decide +kernel

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
/-- Views through which the accumulator's and the output buffer's contents are stated. -/
abbrev accV : View sig .tc .vmem S1024x1024 .f32 := accM.view
abbrev outV : View sig .tc .vmem S1024x1024 .f32 := (Memref.whole cc0_stg3_0 : Memref sig .tc .vmem S1024x1024 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The body's runs -/

set_option maxHeartbeats 1000000 in
/-- First stretch: the accumulator (at anything) is zeroed, then takes the product of the two staged blocks. -/
noncomputable def runFirst (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : cond1 i) (hc2 : cond2 i) (hc3 : ¬cond3 i)
    (x0 : Vec F S1024x1024 .bf16) (x1 : Vec F S1024x1024 .bf16) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A middle stretch that adds: the accumulator takes its contents plus the product of the two staged blocks. -/
noncomputable def runAdd (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : ¬cond3 i)
    (x0 : Vec F S1024x1024 .bf16) (x1 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg7 fullShare xs
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A middle stretch that skips: nothing is loaded or stored. -/
theorem runSkip (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : ¬cond2 i) (hc3 : ¬cond3 i)
    (E : Set ℕ) (K : PUnit → sProp 𝕄) :
    (K ⟨⟩ : sProp 𝕄) ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  iintro Hk
  sl_exec (disch := first | exact hc1 | exact hc2 | exact hc3)
  sl_step
  iexact Hk

set_option maxHeartbeats 1000000 in
/-- The last stretch, adding: the accumulator takes its contents plus the product, and the output buffer (at anything)
    takes the new accumulator plus the bias row. -/
noncomputable def runLastAdd (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : cond3 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

set_option maxHeartbeats 1000000 in
/-- The last stretch, skipping: the accumulator is kept, and the output buffer (at anything) takes the accumulator
    plus the bias row. -/
noncomputable def runLastSkip (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : ¬cond2 i) (hc3 : cond3 i)
    (x2 : Vec F S1x1024 .f32) (xs : Vec F S1024x1024 .f32) :
    { L3 : List (View.Piece (Elt F) S1024x1024 .f32) //
      ∀ (E : Set ℕ) (K : PUnit → sProp 𝕄),
        iprop(owns (c : Thread nD τ) arg5 fullShare x2 ∗ (∃ d, owns (c : Thread nD τ) arg6 fullShare d) ∗ owns (c : Thread nD τ) arg7 fullShare xs
            ∗ (iprop(owns (c : Thread nD τ) arg5 fullShare x2 ∗ (∃ f, arg6.view.loc (c : Thread nD τ) ↦[arg6.view.set]{fullShare} arg6.view.writes (Elt F) f L3) ∗ owns (c : Thread nD τ) arg7 fullShare xs) -∗ K ⟨⟩))
          ⊢ wp frame (wpE (defs₀ (F := F)) Variants.none c none) E (cc0__matmul_kernel i arg3 harg3 arg4 harg4 arg5 harg5 arg6 harg6 arg7 harg7) K } := by
  refine ⟨?_, fun E K => ?run⟩
  case run =>
    simp only [cc0__matmul_kernel_eq_skeleton]; unfold cc0__matmul_kernel_skel
    unfold owns
    iintro ⟨⟨%f2, %hf2, H2⟩, ⟨%d3, %f3, -, H3⟩, ⟨%fs, %hfs, HS⟩, Hk⟩
    obtain rfl := harg5.eq_unread hf2; obtain rfl := harg7.eq_unread hfs
    sl_exec (disch := first | exact hc1 | exact hc2 | exact hc3)
    sl_step
    iapply Hk
    isplitl [H2]
    · iexists _; isplitr; · ipureintro; exact harg5.read_unread _
      iexact H2
    isplitl [H3]; · iexists _; iexact H3
    iexists _; isplitr; · ipureintro; exact harg7.read_unread _
    iexact HS

end Cert.KernelIdeal.Fr

end
-- ==== Proof.Frame.lean ====
/-
  The tiled region's proof data and the frame it yields.

  Point `n` of the grid (row-major; the contraction stretch innermost) is row block `n / 16`, column block `(n / 4) % 4`,
  stretch `n % 4`.  `accAt n` is what the accumulator holds after the body at point `n`: at a first stretch what the
  first-stretch run leaves; at a later stretch that adds, what the adding run leaves over the accumulator of point
  `n - 1`; at one that skips, the accumulator of point `n - 1` unchanged.  `outAt t` is what the output's staging
  buffer holds after a last stretch.  The region's invariant before point `n + 1` is the accumulator at `accAt n`.
  With these the body's runs discharge the pipeline's obligation at every point, the library's frame run applies, and
  the argument buffers — none of which the region or the host operations write — end as launched.
-/
import proofs.«158718_j39599598469144_2_alg».proof.Proof.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

abbrev atFirst (c : Dev nD) (t : Fin cfg0.N) (h1 : cond1 (grid0.coords t)) (h2 : cond2 (grid0.coords t)) (h3 : ¬cond3 (grid0.coords t)) :=
  runFirst (F := F) c (grid0.coords t) (ms0 t) (hs0 t) (ms1 t) (hs1 t) (ms2 t) (hs2 t) (ms3 t) (hs3 t) accM (Memref.isWhole_whole _) h1 h2 h3 (iblk m c 0 t) (iblk m c 1 t)
abbrev atAdd (c : Dev nD) (t : Fin cfg0.N) (h1 : ¬cond1 (grid0.coords t)) (h2 : cond2 (grid0.coords t)) (h3 : ¬cond3 (grid0.coords t)) (xs : Vec F S1024x1024 .f32) :=
  runAdd (F := F) c (grid0.coords t) (ms0 t) (hs0 t) (ms1 t) (hs1 t) (ms2 t) (hs2 t) (ms3 t) (hs3 t) accM (Memref.isWhole_whole _) h1 h2 h3 (iblk m c 0 t) (iblk m c 1 t) xs
abbrev atLastAdd (c : Dev nD) (t : Fin cfg0.N) (h1 : ¬cond1 (grid0.coords t)) (h2 : cond2 (grid0.coords t)) (h3 : cond3 (grid0.coords t)) (xs : Vec F S1024x1024 .f32) :=
  runLastAdd (F := F) c (grid0.coords t) (ms0 t) (hs0 t) (ms1 t) (hs1 t) (ms2 t) (hs2 t) (ms3 t) (hs3 t) accM (Memref.isWhole_whole _) h1 h2 h3 (iblk m c 0 t) (iblk m c 1 t) (iblk m c 2 t) xs
abbrev atLastSkip (c : Dev nD) (t : Fin cfg0.N) (h1 : ¬cond1 (grid0.coords t)) (h2 : ¬cond2 (grid0.coords t)) (h3 : cond3 (grid0.coords t)) (xs : Vec F S1024x1024 .f32) :=
  runLastSkip (F := F) c (grid0.coords t) (ms0 t) (hs0 t) (ms1 t) (hs1 t) (ms2 t) (hs2 t) (ms3 t) (hs3 t) accM (Memref.isWhole_whole _) h1 h2 h3 (iblk m c 2 t) xs

/-- What a list of stores leaves in the accumulator, read back whole. -/
abbrev accOf (L : List (View.Piece (Elt F) S1024x1024 .f32)) : Vec F S1024x1024 .f32 :=
  accV.read (Elt F) (accV.writes (Elt F) accV.junk L)
/-- What a list of stores leaves in the output's staging buffer, read back whole. -/
abbrev outOf (L : List (View.Piece (Elt F) S1024x1024 .f32)) : Vec F S1024x1024 .f32 :=
  outV.read (Elt F) (outV.writes (Elt F) outV.junk L)

/-! ## The stores of each run cover the buffer they go to -/

theorem coverFirst (c : Dev nD) (t : Fin cfg0.N) (h1 h2 h3) (y : S1024x1024.Idx) :
    ∃ pc ∈ (atFirst m c t h1 h2 h3).1, y ∈ pc.1.set :=
  View.cover_of_tiledL (atFirst m c t h1 h2 h3).1 S1024x1024.size (by sl_kernel_rfl) y
theorem coverAdd (c : Dev nD) (t : Fin cfg0.N) (h1 h2 h3) (xs : Vec F S1024x1024 .f32) (y : S1024x1024.Idx) :
    ∃ pc ∈ (atAdd m c t h1 h2 h3 xs).1, y ∈ pc.1.set :=
  View.cover_of_tiledL (atAdd m c t h1 h2 h3 xs).1 S1024x1024.size (by sl_kernel_rfl) y
theorem coverLastAddAcc (c : Dev nD) (t : Fin cfg0.N) (h1 h2 h3) (xs : Vec F S1024x1024 .f32) (y : S1024x1024.Idx) :
    ∃ pc ∈ (atLastAdd m c t h1 h2 h3 xs).2.1, y ∈ pc.1.set :=
  View.cover_of_tiledL (atLastAdd m c t h1 h2 h3 xs).2.1 S1024x1024.size (by sl_kernel_rfl) y
theorem coverLastAddOut (c : Dev nD) (t : Fin cfg0.N) (h1 h2 h3) (xs : Vec F S1024x1024 .f32) (y : S1024x1024.Idx) :
    ∃ pc ∈ (atLastAdd m c t h1 h2 h3 xs).1, y ∈ pc.1.set :=
  View.cover_of_tiledL (atLastAdd m c t h1 h2 h3 xs).1 S1024x1024.size (by sl_kernel_rfl) y
theorem coverLastSkipOut (c : Dev nD) (t : Fin cfg0.N) (h1 h2 h3) (xs : Vec F S1024x1024 .f32) (y : S1024x1024.Idx) :
    ∃ pc ∈ (atLastSkip m c t h1 h2 h3 xs).1, y ∈ pc.1.set :=
  View.cover_of_tiledL (atLastSkip m c t h1 h2 h3 xs).1 S1024x1024.size (by sl_kernel_rfl) y

/-! ## Arithmetic of the grid's points -/

theorem adds_of_first {n : ℕ} (h : n % 4 = 0) : addsAt n := Or.inr (by omega)
theorem not3_of_first {n : ℕ} (h : n % 4 = 0) : ¬ n % 4 = 3 := by omega

/-! ## The accumulator and the output, point by point -/

/-- The accumulator after the body at point `n`. -/
def accAt (c : Dev nD) : (n : ℕ) → n < cfg0.N → Vec F S1024x1024 .f32
  | 0, hn => accOf (atFirst m c ⟨0, hn⟩ ((hcond1 ⟨0, hn⟩).mpr (Nat.zero_mod _)) ((hcond2 ⟨0, hn⟩).mpr (adds_of_first (Nat.zero_mod _))) (fun h => not3_of_first (Nat.zero_mod _) ((hcond3 ⟨0, hn⟩).mp h))).1
  | n + 1, hn =>
    if h0 : (n + 1) % 4 = 0 then
      accOf (atFirst m c ⟨n + 1, hn⟩ ((hcond1 ⟨n + 1, hn⟩).mpr h0) ((hcond2 ⟨n + 1, hn⟩).mpr (adds_of_first h0)) (fun h => not3_of_first h0 ((hcond3 ⟨n + 1, hn⟩).mp h))).1
    else if ha : addsAt (n + 1) then
      if h3 : (n + 1) % 4 = 3 then
        accOf (atLastAdd m c ⟨n + 1, hn⟩ (fun h => h0 ((hcond1 ⟨n + 1, hn⟩).mp h)) ((hcond2 ⟨n + 1, hn⟩).mpr ha) ((hcond3 ⟨n + 1, hn⟩).mpr h3) (accAt c n (Nat.lt_of_succ_lt hn))).2.1
      else
        accOf (atAdd m c ⟨n + 1, hn⟩ (fun h => h0 ((hcond1 ⟨n + 1, hn⟩).mp h)) ((hcond2 ⟨n + 1, hn⟩).mpr ha) (fun h => h3 ((hcond3 ⟨n + 1, hn⟩).mp h)) (accAt c n (Nat.lt_of_succ_lt hn))).1
    else accAt c n (Nat.lt_of_succ_lt hn)

/-- The accumulator the body finds at a point that is not the grid's first. -/
abbrev accBefore (c : Dev nD) (t : Fin cfg0.N) : Vec F S1024x1024 .f32 :=
  accAt m c (t.val - 1) (Nat.lt_of_le_of_lt (Nat.sub_le _ _) t.isLt)

theorem accAt_first (c : Dev nD) (t : Fin cfg0.N) (h0 : t.val % 4 = 0) :
    accAt m c t.val t.isLt = accOf (atFirst m c t ((hcond1 t).mpr h0) ((hcond2 t).mpr (adds_of_first h0)) (fun h => not3_of_first h0 ((hcond3 t).mp h))).1 := by
  obtain ⟨n, hn⟩ := t
  cases n with
  | zero => exact rfl
  | succ n => exact (dif_pos h0).trans rfl

theorem accAt_add (c : Dev nD) (t : Fin cfg0.N) (h0 : ¬t.val % 4 = 0) (ha : addsAt t.val) (h3 : ¬t.val % 4 = 3) :
    accAt m c t.val t.isLt = accOf (atAdd m c t (fun h => h0 ((hcond1 t).mp h)) ((hcond2 t).mpr ha) (fun h => h3 ((hcond3 t).mp h)) (accBefore m c t)).1 := by
  obtain ⟨n, hn⟩ := t
  cases n with
  | zero => exact absurd (Nat.zero_mod _) h0
  | succ n => exact (dif_neg h0).trans ((dif_pos ha).trans ((dif_neg h3).trans rfl))

theorem accAt_lastAdd (c : Dev nD) (t : Fin cfg0.N) (h0 : ¬t.val % 4 = 0) (ha : addsAt t.val) (h3 : t.val % 4 = 3) :
    accAt m c t.val t.isLt = accOf (atLastAdd m c t (fun h => h0 ((hcond1 t).mp h)) ((hcond2 t).mpr ha) ((hcond3 t).mpr h3) (accBefore m c t)).2.1 := by
  obtain ⟨n, hn⟩ := t
  cases n with
  | zero => exact absurd (Nat.zero_mod _) h0
  | succ n => exact (dif_neg h0).trans ((dif_pos ha).trans ((dif_pos h3).trans rfl))

theorem accAt_skip (c : Dev nD) (t : Fin cfg0.N) (h0 : ¬t.val % 4 = 0) (ha : ¬addsAt t.val) :
    accAt m c t.val t.isLt = accBefore m c t := by
  obtain ⟨n, hn⟩ := t
  cases n with
  | zero => exact absurd (Nat.zero_mod _) h0
  | succ n => exact (dif_neg h0).trans ((dif_neg ha).trans rfl)

/-- The output's staging buffer after the body at a last stretch (elsewhere the buffer is handed back as found, and
    this value is not consulted). -/
def outAt (c : Dev nD) (t : Fin cfg0.N) : Vec F S1024x1024 .f32 :=
  if h3 : t.val % 4 = 3 then
    if ha : addsAt t.val then
      outOf (atLastAdd m c t (fun h => not3_of_first ((hcond1 t).mp h) h3) ((hcond2 t).mpr ha) ((hcond3 t).mpr h3) (accBefore m c t)).1
    else
      outOf (atLastSkip m c t (fun h => not3_of_first ((hcond1 t).mp h) h3) (fun h => ha ((hcond2 t).mp h)) ((hcond3 t).mpr h3) (accBefore m c t)).1
  else outOf []

/-! ## The invariant -/

/-- Before point `n`: at the grid's first point the accumulator holds anything; afterwards what point `n - 1` left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- On core `c`: the arrays as the region finds them; after the body each input's buffer at its block and the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3_live (c : Dev nD) (t : Fin cfg0.N) (h : cond3 (grid0.coords t)) :
    (dats m 0 c).leavesExact 3 t = owns (c : Thread nD τ) (ms3 t) fullShare (outAt m c t) := by
  unfold Dat.leavesExact; rw [liveAt3 t h, after3]

set_option maxHeartbeats 4800000 in
/-- The body at any point: the closed forms say which of the five runs applies; the invariant hands it the accumulator
    and takes it back at this point's contents; inputs stay at their blocks; the output's buffer is handed back as
    found except at a last stretch, where it holds that run's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 128 := lt_of_lt_of_eq t.isLt (show cfg0.N = 128 from N_0)
  by_cases h0 : t.val % 4 = 0
  · -- a first stretch
    have hn3 : ¬cond3 (grid0.coords t) := fun h => not3_of_first h0 ((hcond3 t).mp h)
    rw [Dat.leavesExact_idle (dats m 0 c) 3 t (idleAt3 t hn3) (noFlush3 t hn3)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((atFirst m c t ((hcond1 t).mpr h0) ((hcond2 t).mpr (adds_of_first h0)) hn3).2 Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro; exact View.read_writes_of_cover _ _ _ _ _ (coverFirst m c t _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((atFirst m c t ((hcond1 t).mpr h0) ((hcond2 t).mpr (adds_of_first h0)) hn3).2 Set.univ _)
      isplitl [H0]; · iexact H0
      isplitl [H1]; · iexact H1
      isplitl [HS]; · iexists _; iexact HS
      iintro ⟨H0, H1, ⟨%es, HS⟩⟩
      isplitl [HS Hg]
      · isplitl [HS]
        · unfold owns; iexists _; isplitr
          swap; · iexact HS
          ipureintro; exact View.read_writes_of_cover _ _ _ _ _ (coverFirst m c t _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hn1 : ¬cond1 (grid0.coords t) := fun h => h0 ((hcond1 t).mp h)
    rw [PhiS_castSucc m c t, PhiS_pos m c _ _ hz]
    by_cases h3 : t.val % 4 = 3
    · have hc3 : cond3 (grid0.coords t) := (hcond3 t).mpr h3
      rw [leaves3_live m c t hc3]
      by_cases ha : addsAt t.val
      · -- the last stretch, adding
        rw [accAt_lastAdd m c t h0 ha h3]
        rw [show outAt m c t = outOf (atLastAdd m c t hn1 ((hcond2 t).mpr ha) hc3 (accBefore m c t)).1 from by
          unfold outAt; rw [dif_pos h3, dif_pos ha]]
        iintro ⟨⟨HS, Hg⟩, Ho, ⟨%d0, H0⟩, ⟨%d1, H1⟩, ⟨%d2, H2⟩, ⟨%d3, H3⟩⟩
        iapply ((atLastAdd m c t hn1 ((hcond2 t).mpr ha) hc3 (accBefore m c t)).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hg]
        · isplitl [HS]
          · unfold owns; iexists _; isplitr
            swap; · iexact HS
            ipureintro; exact View.read_writes_of_cover _ _ _ _ _ (coverLastAddAcc m c t _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastAddOut m c t _ _ _ _)
      · -- the last stretch, skipping
        rw [accAt_skip m c t h0 ha]
        rw [show outAt m c t = outOf (atLastSkip m c t hn1 (fun h => ha ((hcond2 t).mp h)) hc3 (accBefore m c t)).1 from by
          unfold outAt; rw [dif_pos h3, dif_neg ha]]
        iintro ⟨⟨HS, Hg⟩, Ho, ⟨%d0, H0⟩, ⟨%d1, H1⟩, ⟨%d2, H2⟩, ⟨%d3, H3⟩⟩
        iapply ((atLastSkip m c t hn1 (fun h => ha ((hcond2 t).mp h)) hc3 (accBefore m c t)).2 Set.univ _)
        isplitl [H2]; · iexact H2
        isplitl [H3]; · iexists _; iexact H3
        isplitl [HS]; · iexact HS
        iintro ⟨H2, ⟨%e3, H3⟩, HS⟩
        isplitl [HS Hg]
        · isplitl [HS]; · iexact HS
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastSkipOut m c t _ _ _ _)
    · have hn3 : ¬cond3 (grid0.coords t) := fun h => h3 ((hcond3 t).mp h)
      rw [Dat.leavesExact_idle (dats m 0 c) 3 t (idleAt3 t hn3) (noFlush3 t hn3)]
      by_cases ha : addsAt t.val
      · -- a middle stretch that adds
        rw [accAt_add m c t h0 ha h3]
        iintro ⟨⟨HS, Hg⟩, Ho, ⟨%d0, H0⟩, ⟨%d1, H1⟩, ⟨%d2, H2⟩, ⟨%d3, H3⟩⟩
        iapply ((atAdd m c t hn1 ((hcond2 t).mpr ha) hn3 (accBefore m c t)).2 Set.univ _)
        isplitl [H0]; · iexact H0
        isplitl [H1]; · iexact H1
        isplitl [HS]; · iexact HS
        iintro ⟨H0, H1, ⟨%es, HS⟩⟩
        isplitl [HS Hg]
        · isplitl [HS]
          · unfold owns; iexists _; isplitr
            swap; · iexact HS
            ipureintro; exact View.read_writes_of_cover _ _ _ _ _ (coverAdd m c t _ _ _ _)
          iexact Hg
        isplitl [Ho]; · iexact Ho
        isplitl [H0]; · iexact H0
        isplitl [H1]; · iexact H1
        isplitl [H2]; · iexact H2
        iexists _; iexact H3
      · -- a middle stretch that skips
        rw [accAt_skip m c t h0 ha]
        iintro ⟨⟨HS, Hg⟩, Ho, ⟨%d0, H0⟩, ⟨%d1, H1⟩, ⟨%d2, H2⟩, ⟨%d3, H3⟩⟩
        iapply (runSkip (F := F) c (grid0.coords t) (ms0 t) (hs0 t) (ms1 t) (hs1 t) (ms2 t) (hs2 t) (ms3 t) (hs3 t) accM (Memref.isWhole_whole _) hn1 (fun h => ha ((hcond2 t).mp h)) hn3 Set.univ _)
        isplitl [HS Hg]
        · isplitl [HS]; · iexact HS
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run and the frame -/

set_option backward.isDefEq.respectTransparency.types false in
/-- Every weakly fair execution of the program terminates, faulting nowhere, with every array of the region at what
    the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- An argument buffer is no array of the region and is unscoped, so the run's post gives it back as the region found
    it, which is as launched. -/
theorem arg_kept (r : PUnit × MemSt nD τ sig (Elt F)) (h : Pipeline.FramePost cfgs (dats m) 0 (V m) r) (c : Dev nD) (b : Ref sig .tc)
    (hb : b = main_arg0 ∨ b = main_arg1 ∨ b = main_arg2 ∨ b = main_arg3 ∨ b = main_arg4) :
    r.2.mem ((c.tc : Thread nD τ).loc b) = m ((c.tc : Thread nD τ).loc b) := by
  refine ((h c).2 b ?_).trans (V_arg m c b hb)
  rcases hb with rfl | rfl | rfl | rfl | rfl <;> exact Pipeline.mem_restRefs_of _ rfl (by decide)

/-- The frame: the program runs to the end and its argument buffers end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨arg_kept m r h c _ (.inl rfl), arg_kept m r h c _ (.inr (.inl rfl)),
    arg_kept m r h c _ (.inr (.inr (.inl rfl))), arg_kept m r h c _ (.inr (.inr (.inr (.inl rfl)))), arg_kept m r h c _ (.inr (.inr (.inr (.inr rfl))))⟩) (run_main m ρ)

end Cert.KernelIdeal.Fr

end
-- ==== Proof.KEntry.lean ====
/-
  The program up to its one tiled region, and the blocks the region's windows stage.

  Before the region the host rounds the three weight blocks, pads each below with zeros to 4096 rows, joins them
  side by side into the 4096 × 4096 weight matrix, views the bias as a row, and rounds the activations.  `V` is what
  each buffer of a core holds when the region is entered: the fold of those operations over the launch memory.
  `iblk w t` is the block of window `w`'s array that grid point `t` stages, read off `V`.  Every input window's
  staging buffer holds that block when the body runs at `t`, whether the point fetched it or an earlier one did.
-/
import proofs.«158718_j39599598469144_2_alg».proof.Proof.Gen.Kernel.Launch
import proofs.«158718_j39599598469144_2_alg».proof.Proof.Gen.Kernel.Skeleton
import proofs.«158718_j39599598469144_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The stretches of host operations before the region, in program order. -/
abbrev prefixOps : List (List (HloOp τ sig (Elt F))) :=
  [hostOps0, hostOps0_1, hostOps0_2, hostOps0_3, hostOps0_4, hostOps0_5, hostOps0_6]

/-- What core `c`'s buffer `b` holds when the region is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- An operation with several operands writes its result buffer only. -/
theorem nary_writes {n : Nat} (xs : Fin n → Ref sig .tc) (y : Ref sig .tc)
    (f : ((k : Fin n) → (xs k).ty.Contents (Elt F)) → y.ty.Contents (Elt F)) (hxs hy) :
    (StableHlo.nary xs y f hxs hy : HloOp τ sig (Elt F)).writes = {(y : DevRef τ sig)} := rfl

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program reduces to its region entered with every buffer at `V`: the host stretches run first, each touching
    unscoped buffers only and allocating nothing. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes an argument buffer: the region finds each as launched. -/
theorem V_arg (c : Dev nD) (b : Ref sig .tc)
    (hb : b = main_arg0 ∨ b = main_arg1 ∨ b = main_arg2 ∨ b = main_arg3 ∨ b = main_arg4) :
    V m c b = m ((c : Thread nD τ).loc b) := by
  rcases hb with rfl | rfl | rfl | rfl | rfl <;>
  exact StableHlo.after_of_forall_not_mem (b := Proc.devRef .tc _) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.reshape_writes, nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place (the three input windows in turn). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end Cert.Kernel.Fr

end
-- ==== Proof.KRuns.lean ====
/-
  The kernel body run once per way its three conditionals can fall on the grid.

  The grid is 8 × 4 × 4: a row block `i`, a column block `j`, and a stretch `k` of the contraction axis, `k` innermost.
  The body (1) zeroes the accumulator when `k = 0`; (2) adds the product of the staged activation and weight blocks to
  the accumulator when the weight block is not structurally zero, that is when `2 ≤ j` or `k ≤ j`; (3) when `k = 3`
  stores accumulator plus bias row into the output block.  Five combinations occur: first stretch (always adding),
  a middle stretch that adds, a middle stretch that skips, the last stretch adding, the last stretch skipping.
  For each, the body's run is stated as a weakest-precondition triple over whole staging buffers; the stores each
  buffer ends with are found by running the body symbolically.
-/
import proofs.«158718_j39599598469144_2_alg».proof.Proof.KEntry

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions, from the grid coordinates, and where they hold -/

/-- The accumulator is reset: the contraction stretch is the first. -/
abbrev cond1 (i : grid0.Coords) : Prop := (Scalar.cmpi .ne (Scalar.extui (Scalar.cmpi .eq (BitVec.ofNat 32 (i 2).val) 0#32)) 0#32) = 1#1
/-- The weight block is not structurally zero: the column block is one of the full-height ones, or the stretch is
    within the column block's height. -/
abbrev cond2 (i : grid0.Coords) : Prop := (Scalar.cmpi .ne (Scalar.extui (Scalar.ori (Scalar.cmpi .sge (BitVec.ofNat 32 (i 1).val) 2#32) (Scalar.cmpi .sle (BitVec.ofNat 32 (i 2).val) (BitVec.ofNat 32 (i 1).val)))) 0#32) = 1#1
/-- The output block is written: the contraction stretch is the last. -/
abbrev cond3 (i : grid0.Coords) : Prop := k0_cond3 i = 1#1

/-- Point `n` of the grid (row-major, stretch innermost) adds its product: column block `(n / 4) % 4`, stretch `n % 4`. -/
abbrev addsAt (n : ℕ) : Prop := 2 ≤ (n / 4) % 4 ∨ n % 4 ≤ (n / 4) % 4

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ addsAt t.val :=
  (by decide +kernel : ∀ t : Fin grid0.N, cond2 (grid0.coords t) ↔ addsAt t.val)
theorem hcond3 : ∀ t : Fin cfg0.N, cond3 (grid0.coords t) ↔ t.val % 4 = 3 :=
  (by decide +kernel : ∀ t : Fin grid0.N, cond3 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from the last stretch the output window is idle and not written back. -/
theorem idleAt3 : ∀ t : Fin cfg0.N, ¬cond3 (grid0.coords t) → cfg0.idle 3 (grid0.coords t) = true := by decide +kernel
theorem noFlush3 : ∀ t : Fin cfg0.N, ¬cond3 (grid0.coords t) → (cfg0.win 3).flush t = false := by decide +kernel
/-- At the last stretch it is live. -/
theorem liveAt3 : ∀ t : Fin cfg0.N, cond3 (grid0.coords t) → cfg0.idle 3 (grid0.coords t) = false := by decide +kernel

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .f32 := win0_3.stage (cfg0.slots t 3)
abbrev hs3 (t : Fin cfg0.N) : (ms3 t).IsWhole := hstage0_3 ((cfg0.slots t 3).cast nbuf0_3)
/-- The accumulator: a whole scoped buffer of the kernel's own. -/
abbrev accM : Memref sig .tc .vmem S1024x1024 .f32 := Memref.whole cc0_scratch0
/-- Views through which the accumulator's and the output buffer's contents are stated. -/
abbrev accV : View sig .tc .vmem S1024x1024 .f32 := accM.view
abbrev outV : View sig .tc .vmem S1024x1024 .f32 := (Memref.whole cc0_stg3_0 : Memref sig .tc .vmem S1024x1024 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

/-! ## The body's runs -/

set_option maxHeartbeats 1000000 in
/-- First stretch: the accumulator (at anything) is zeroed, then takes the product of the two staged blocks. -/
noncomputable def runFirst (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : cond1 i) (hc2 : cond2 i) (hc3 : ¬cond3 i)
    (x0 : Vec F S1024x1024 .bf16) (x1 : Vec F S1024x1024 .bf16) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%ds, %fs, -, HS⟩, Hk⟩
    obtain rfl := harg3.eq_unread hf0; obtain rfl := harg4.eq_unread hf1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A middle stretch that adds: the accumulator takes its contents plus the product of the two staged blocks. -/
noncomputable def runAdd (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : ¬cond3 i)
    (x0 : Vec F S1024x1024 .bf16) (x1 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg7 fullShare xs
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%fs, %hfs, HS⟩, Hk⟩
    obtain rfl := harg3.eq_unread hf0; obtain rfl := harg4.eq_unread hf1; obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    iexists _; iexact HS

set_option maxHeartbeats 1000000 in
/-- A middle stretch that skips: nothing is loaded or stored. -/
theorem runSkip (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : ¬cond2 i) (hc3 : ¬cond3 i)
    (E : Set ℕ) (K : PUnit → sProp 𝕄) :
    (K ⟨⟩ : sProp 𝕄) ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  iintro Hk
  sl_exec (disch := first | exact hc1 | exact hc2 | exact hc3)
  sl_step
  iexact Hk

set_option maxHeartbeats 1000000 in
/-- The last stretch, adding: the accumulator takes its contents plus the product, and the output buffer (at anything)
    takes the new accumulator plus the bias row. -/
noncomputable def runLastAdd (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : cond3 i)
    (x0 : Vec F S1024x1024 .bf16) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

set_option maxHeartbeats 1000000 in
/-- The last stretch, skipping: the accumulator is kept, and the output buffer (at anything) takes the accumulator
    plus the bias row. -/
noncomputable def runLastSkip (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : ¬cond2 i) (hc3 : cond3 i)
    (x2 : Vec F S1x1024 .f32) (xs : Vec F S1024x1024 .f32) :
    { L3 : List (View.Piece (Elt F) S1024x1024 .f32) //
      ∀ (E : Set ℕ) (K : PUnit → sProp 𝕄),
        iprop(owns (c : Thread nD τ) arg5 fullShare x2 ∗ (∃ d, owns (c : Thread nD τ) arg6 fullShare d) ∗ owns (c : Thread nD τ) arg7 fullShare xs
            ∗ (iprop(owns (c : Thread nD τ) arg5 fullShare x2 ∗ (∃ f, arg6.view.loc (c : Thread nD τ) ↦[arg6.view.set]{fullShare} arg6.view.writes (Elt F) f L3) ∗ owns (c : Thread nD τ) arg7 fullShare xs) -∗ K ⟨⟩))
          ⊢ wp frame (wpE (defs₀ (F := F)) Variants.none c none) E (cc0__matmul_kernel i arg3 harg3 arg4 harg4 arg5 harg5 arg6 harg6 arg7 harg7) K } := by
  refine ⟨?_, fun E K => ?run⟩
  case run =>
    simp only [cc0__matmul_kernel_eq_skeleton]; unfold cc0__matmul_kernel_skel
    unfold owns
    iintro ⟨⟨%f2, %hf2, H2⟩, ⟨%d3, %f3, -, H3⟩, ⟨%fs, %hfs, HS⟩, Hk⟩
    obtain rfl := harg5.eq_unread hf2; obtain rfl := harg7.eq_unread hfs
    sl_exec (disch := first | exact hc1 | exact hc2 | exact hc3)
    sl_step
    iapply Hk
    isplitl [H2]
    · iexists _; isplitr; · ipureintro; exact harg5.read_unread _
      iexact H2
    isplitl [H3]; · iexists _; iexact H3
    iexists _; isplitr; · ipureintro; exact harg7.read_unread _
    iexact HS

end Cert.Kernel.Fr

end
-- ==== Proof.KFrame.lean ====
/-
  The tiled region's proof data and the frame it yields.

  Point `n` of the grid (row-major; the contraction stretch innermost) is row block `n / 16`, column block `(n / 4) % 4`,
  stretch `n % 4`.  `accAt n` is what the accumulator holds after the body at point `n`: at a first stretch what the
  first-stretch run leaves; at a later stretch that adds, what the adding run leaves over the accumulator of point
  `n - 1`; at one that skips, the accumulator of point `n - 1` unchanged.  `outAt t` is what the output's staging
  buffer holds after a last stretch.  The region's invariant before point `n + 1` is the accumulator at `accAt n`.
  With these the body's runs discharge the pipeline's obligation at every point, the library's frame run applies, and
  the argument buffers — none of which the region or the host operations write — end as launched.
-/
import proofs.«158718_j39599598469144_2_alg».proof.Proof.KRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

abbrev atFirst (c : Dev nD) (t : Fin cfg0.N) (h1 : cond1 (grid0.coords t)) (h2 : cond2 (grid0.coords t)) (h3 : ¬cond3 (grid0.coords t)) :=
  runFirst (F := F) c (grid0.coords t) (ms0 t) (hs0 t) (ms1 t) (hs1 t) (ms2 t) (hs2 t) (ms3 t) (hs3 t) accM (Memref.isWhole_whole _) h1 h2 h3 (iblk m c 0 t) (iblk m c 1 t)
abbrev atAdd (c : Dev nD) (t : Fin cfg0.N) (h1 : ¬cond1 (grid0.coords t)) (h2 : cond2 (grid0.coords t)) (h3 : ¬cond3 (grid0.coords t)) (xs : Vec F S1024x1024 .f32) :=
  runAdd (F := F) c (grid0.coords t) (ms0 t) (hs0 t) (ms1 t) (hs1 t) (ms2 t) (hs2 t) (ms3 t) (hs3 t) accM (Memref.isWhole_whole _) h1 h2 h3 (iblk m c 0 t) (iblk m c 1 t) xs
abbrev atLastAdd (c : Dev nD) (t : Fin cfg0.N) (h1 : ¬cond1 (grid0.coords t)) (h2 : cond2 (grid0.coords t)) (h3 : cond3 (grid0.coords t)) (xs : Vec F S1024x1024 .f32) :=
  runLastAdd (F := F) c (grid0.coords t) (ms0 t) (hs0 t) (ms1 t) (hs1 t) (ms2 t) (hs2 t) (ms3 t) (hs3 t) accM (Memref.isWhole_whole _) h1 h2 h3 (iblk m c 0 t) (iblk m c 1 t) (iblk m c 2 t) xs
abbrev atLastSkip (c : Dev nD) (t : Fin cfg0.N) (h1 : ¬cond1 (grid0.coords t)) (h2 : ¬cond2 (grid0.coords t)) (h3 : cond3 (grid0.coords t)) (xs : Vec F S1024x1024 .f32) :=
  runLastSkip (F := F) c (grid0.coords t) (ms0 t) (hs0 t) (ms1 t) (hs1 t) (ms2 t) (hs2 t) (ms3 t) (hs3 t) accM (Memref.isWhole_whole _) h1 h2 h3 (iblk m c 2 t) xs

/-- What a list of stores leaves in the accumulator, read back whole. -/
abbrev accOf (L : List (View.Piece (Elt F) S1024x1024 .f32)) : Vec F S1024x1024 .f32 :=
  accV.read (Elt F) (accV.writes (Elt F) accV.junk L)
/-- What a list of stores leaves in the output's staging buffer, read back whole. -/
abbrev outOf (L : List (View.Piece (Elt F) S1024x1024 .f32)) : Vec F S1024x1024 .f32 :=
  outV.read (Elt F) (outV.writes (Elt F) outV.junk L)

/-! ## The stores of each run cover the buffer they go to -/

theorem coverFirst (c : Dev nD) (t : Fin cfg0.N) (h1 h2 h3) (y : S1024x1024.Idx) :
    ∃ pc ∈ (atFirst m c t h1 h2 h3).1, y ∈ pc.1.set :=
  View.cover_of_tiledL (atFirst m c t h1 h2 h3).1 S1024x1024.size (by sl_kernel_rfl) y
theorem coverAdd (c : Dev nD) (t : Fin cfg0.N) (h1 h2 h3) (xs : Vec F S1024x1024 .f32) (y : S1024x1024.Idx) :
    ∃ pc ∈ (atAdd m c t h1 h2 h3 xs).1, y ∈ pc.1.set :=
  View.cover_of_tiledL (atAdd m c t h1 h2 h3 xs).1 S1024x1024.size (by sl_kernel_rfl) y
theorem coverLastAddAcc (c : Dev nD) (t : Fin cfg0.N) (h1 h2 h3) (xs : Vec F S1024x1024 .f32) (y : S1024x1024.Idx) :
    ∃ pc ∈ (atLastAdd m c t h1 h2 h3 xs).2.1, y ∈ pc.1.set :=
  View.cover_of_tiledL (atLastAdd m c t h1 h2 h3 xs).2.1 S1024x1024.size (by sl_kernel_rfl) y
theorem coverLastAddOut (c : Dev nD) (t : Fin cfg0.N) (h1 h2 h3) (xs : Vec F S1024x1024 .f32) (y : S1024x1024.Idx) :
    ∃ pc ∈ (atLastAdd m c t h1 h2 h3 xs).1, y ∈ pc.1.set :=
  View.cover_of_tiledL (atLastAdd m c t h1 h2 h3 xs).1 S1024x1024.size (by sl_kernel_rfl) y
theorem coverLastSkipOut (c : Dev nD) (t : Fin cfg0.N) (h1 h2 h3) (xs : Vec F S1024x1024 .f32) (y : S1024x1024.Idx) :
    ∃ pc ∈ (atLastSkip m c t h1 h2 h3 xs).1, y ∈ pc.1.set :=
  View.cover_of_tiledL (atLastSkip m c t h1 h2 h3 xs).1 S1024x1024.size (by sl_kernel_rfl) y

/-! ## Arithmetic of the grid's points -/

theorem adds_of_first {n : ℕ} (h : n % 4 = 0) : addsAt n := Or.inr (by omega)
theorem not3_of_first {n : ℕ} (h : n % 4 = 0) : ¬ n % 4 = 3 := by omega

/-! ## The accumulator and the output, point by point -/

/-- The accumulator after the body at point `n`. -/
def accAt (c : Dev nD) : (n : ℕ) → n < cfg0.N → Vec F S1024x1024 .f32
  | 0, hn => accOf (atFirst m c ⟨0, hn⟩ ((hcond1 ⟨0, hn⟩).mpr (Nat.zero_mod _)) ((hcond2 ⟨0, hn⟩).mpr (adds_of_first (Nat.zero_mod _))) (fun h => not3_of_first (Nat.zero_mod _) ((hcond3 ⟨0, hn⟩).mp h))).1
  | n + 1, hn =>
    if h0 : (n + 1) % 4 = 0 then
      accOf (atFirst m c ⟨n + 1, hn⟩ ((hcond1 ⟨n + 1, hn⟩).mpr h0) ((hcond2 ⟨n + 1, hn⟩).mpr (adds_of_first h0)) (fun h => not3_of_first h0 ((hcond3 ⟨n + 1, hn⟩).mp h))).1
    else if ha : addsAt (n + 1) then
      if h3 : (n + 1) % 4 = 3 then
        accOf (atLastAdd m c ⟨n + 1, hn⟩ (fun h => h0 ((hcond1 ⟨n + 1, hn⟩).mp h)) ((hcond2 ⟨n + 1, hn⟩).mpr ha) ((hcond3 ⟨n + 1, hn⟩).mpr h3) (accAt c n (Nat.lt_of_succ_lt hn))).2.1
      else
        accOf (atAdd m c ⟨n + 1, hn⟩ (fun h => h0 ((hcond1 ⟨n + 1, hn⟩).mp h)) ((hcond2 ⟨n + 1, hn⟩).mpr ha) (fun h => h3 ((hcond3 ⟨n + 1, hn⟩).mp h)) (accAt c n (Nat.lt_of_succ_lt hn))).1
    else accAt c n (Nat.lt_of_succ_lt hn)

/-- The accumulator the body finds at a point that is not the grid's first. -/
abbrev accBefore (c : Dev nD) (t : Fin cfg0.N) : Vec F S1024x1024 .f32 :=
  accAt m c (t.val - 1) (Nat.lt_of_le_of_lt (Nat.sub_le _ _) t.isLt)

theorem accAt_first (c : Dev nD) (t : Fin cfg0.N) (h0 : t.val % 4 = 0) :
    accAt m c t.val t.isLt = accOf (atFirst m c t ((hcond1 t).mpr h0) ((hcond2 t).mpr (adds_of_first h0)) (fun h => not3_of_first h0 ((hcond3 t).mp h))).1 := by
  obtain ⟨n, hn⟩ := t
  cases n with
  | zero => exact rfl
  | succ n => exact (dif_pos h0).trans rfl

theorem accAt_add (c : Dev nD) (t : Fin cfg0.N) (h0 : ¬t.val % 4 = 0) (ha : addsAt t.val) (h3 : ¬t.val % 4 = 3) :
    accAt m c t.val t.isLt = accOf (atAdd m c t (fun h => h0 ((hcond1 t).mp h)) ((hcond2 t).mpr ha) (fun h => h3 ((hcond3 t).mp h)) (accBefore m c t)).1 := by
  obtain ⟨n, hn⟩ := t
  cases n with
  | zero => exact absurd (Nat.zero_mod _) h0
  | succ n => exact (dif_neg h0).trans ((dif_pos ha).trans ((dif_neg h3).trans rfl))

theorem accAt_lastAdd (c : Dev nD) (t : Fin cfg0.N) (h0 : ¬t.val % 4 = 0) (ha : addsAt t.val) (h3 : t.val % 4 = 3) :
    accAt m c t.val t.isLt = accOf (atLastAdd m c t (fun h => h0 ((hcond1 t).mp h)) ((hcond2 t).mpr ha) ((hcond3 t).mpr h3) (accBefore m c t)).2.1 := by
  obtain ⟨n, hn⟩ := t
  cases n with
  | zero => exact absurd (Nat.zero_mod _) h0
  | succ n => exact (dif_neg h0).trans ((dif_pos ha).trans ((dif_pos h3).trans rfl))

theorem accAt_skip (c : Dev nD) (t : Fin cfg0.N) (h0 : ¬t.val % 4 = 0) (ha : ¬addsAt t.val) :
    accAt m c t.val t.isLt = accBefore m c t := by
  obtain ⟨n, hn⟩ := t
  cases n with
  | zero => exact absurd (Nat.zero_mod _) h0
  | succ n => exact (dif_neg h0).trans ((dif_neg ha).trans rfl)

/-- The output's staging buffer after the body at a last stretch (elsewhere the buffer is handed back as found, and
    this value is not consulted). -/
def outAt (c : Dev nD) (t : Fin cfg0.N) : Vec F S1024x1024 .f32 :=
  if h3 : t.val % 4 = 3 then
    if ha : addsAt t.val then
      outOf (atLastAdd m c t (fun h => not3_of_first ((hcond1 t).mp h) h3) ((hcond2 t).mpr ha) ((hcond3 t).mpr h3) (accBefore m c t)).1
    else
      outOf (atLastSkip m c t (fun h => not3_of_first ((hcond1 t).mp h) h3) (fun h => ha ((hcond2 t).mp h)) ((hcond3 t).mpr h3) (accBefore m c t)).1
  else outOf []

/-! ## The invariant -/

/-- Before point `n`: at the grid's first point the accumulator holds anything; afterwards what point `n - 1` left. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- On core `c`: the arrays as the region finds them; after the body each input's buffer at its block and the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3_live (c : Dev nD) (t : Fin cfg0.N) (h : cond3 (grid0.coords t)) :
    (dats m 0 c).leavesExact 3 t = owns (c : Thread nD τ) (ms3 t) fullShare (outAt m c t) := by
  unfold Dat.leavesExact; rw [liveAt3 t h, after3]

set_option maxHeartbeats 4800000 in
/-- The body at any point: the closed forms say which of the five runs applies; the invariant hands it the accumulator
    and takes it back at this point's contents; inputs stay at their blocks; the output's buffer is handed back as
    found except at a last stretch, where it holds that run's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 128 := lt_of_lt_of_eq t.isLt (show cfg0.N = 128 from N_0)
  by_cases h0 : t.val % 4 = 0
  · -- a first stretch
    have hn3 : ¬cond3 (grid0.coords t) := fun h => not3_of_first h0 ((hcond3 t).mp h)
    rw [Dat.leavesExact_idle (dats m 0 c) 3 t (idleAt3 t hn3) (noFlush3 t hn3)]
    rw [accAt_first m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((atFirst m c t ((hcond1 t).mpr h0) ((hcond2 t).mpr (adds_of_first h0)) hn3).2 Set.univ _)
      isplitl [H0]; · iexact H0
      isplitl [H1]; · iexact H1
      isplitl [HS]; · iexact HS
      iintro ⟨H0, H1, ⟨%es, HS⟩⟩
      isplitl [HS Hg]
      · isplitl [HS]
        · unfold owns; iexists _; isplitr
          swap; · iexact HS
          ipureintro; exact View.read_writes_of_cover _ _ _ _ _ (coverFirst m c t _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((atFirst m c t ((hcond1 t).mpr h0) ((hcond2 t).mpr (adds_of_first h0)) hn3).2 Set.univ _)
      isplitl [H0]; · iexact H0
      isplitl [H1]; · iexact H1
      isplitl [HS]; · iexists _; iexact HS
      iintro ⟨H0, H1, ⟨%es, HS⟩⟩
      isplitl [HS Hg]
      · isplitl [HS]
        · unfold owns; iexists _; isplitr
          swap; · iexact HS
          ipureintro; exact View.read_writes_of_cover _ _ _ _ _ (coverFirst m c t _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hn1 : ¬cond1 (grid0.coords t) := fun h => h0 ((hcond1 t).mp h)
    rw [PhiS_castSucc m c t, PhiS_pos m c _ _ hz]
    by_cases h3 : t.val % 4 = 3
    · have hc3 : cond3 (grid0.coords t) := (hcond3 t).mpr h3
      rw [leaves3_live m c t hc3]
      by_cases ha : addsAt t.val
      · -- the last stretch, adding
        rw [accAt_lastAdd m c t h0 ha h3]
        rw [show outAt m c t = outOf (atLastAdd m c t hn1 ((hcond2 t).mpr ha) hc3 (accBefore m c t)).1 from by
          unfold outAt; rw [dif_pos h3, dif_pos ha]]
        iintro ⟨⟨HS, Hg⟩, Ho, ⟨%d0, H0⟩, ⟨%d1, H1⟩, ⟨%d2, H2⟩, ⟨%d3, H3⟩⟩
        iapply ((atLastAdd m c t hn1 ((hcond2 t).mpr ha) hc3 (accBefore m c t)).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hg]
        · isplitl [HS]
          · unfold owns; iexists _; isplitr
            swap; · iexact HS
            ipureintro; exact View.read_writes_of_cover _ _ _ _ _ (coverLastAddAcc m c t _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastAddOut m c t _ _ _ _)
      · -- the last stretch, skipping
        rw [accAt_skip m c t h0 ha]
        rw [show outAt m c t = outOf (atLastSkip m c t hn1 (fun h => ha ((hcond2 t).mp h)) hc3 (accBefore m c t)).1 from by
          unfold outAt; rw [dif_pos h3, dif_neg ha]]
        iintro ⟨⟨HS, Hg⟩, Ho, ⟨%d0, H0⟩, ⟨%d1, H1⟩, ⟨%d2, H2⟩, ⟨%d3, H3⟩⟩
        iapply ((atLastSkip m c t hn1 (fun h => ha ((hcond2 t).mp h)) hc3 (accBefore m c t)).2 Set.univ _)
        isplitl [H2]; · iexact H2
        isplitl [H3]; · iexists _; iexact H3
        isplitl [HS]; · iexact HS
        iintro ⟨H2, ⟨%e3, H3⟩, HS⟩
        isplitl [HS Hg]
        · isplitl [HS]; · iexact HS
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverLastSkipOut m c t _ _ _ _)
    · have hn3 : ¬cond3 (grid0.coords t) := fun h => h3 ((hcond3 t).mp h)
      rw [Dat.leavesExact_idle (dats m 0 c) 3 t (idleAt3 t hn3) (noFlush3 t hn3)]
      by_cases ha : addsAt t.val
      · -- a middle stretch that adds
        rw [accAt_add m c t h0 ha h3]
        iintro ⟨⟨HS, Hg⟩, Ho, ⟨%d0, H0⟩, ⟨%d1, H1⟩, ⟨%d2, H2⟩, ⟨%d3, H3⟩⟩
        iapply ((atAdd m c t hn1 ((hcond2 t).mpr ha) hn3 (accBefore m c t)).2 Set.univ _)
        isplitl [H0]; · iexact H0
        isplitl [H1]; · iexact H1
        isplitl [HS]; · iexact HS
        iintro ⟨H0, H1, ⟨%es, HS⟩⟩
        isplitl [HS Hg]
        · isplitl [HS]
          · unfold owns; iexists _; isplitr
            swap; · iexact HS
            ipureintro; exact View.read_writes_of_cover _ _ _ _ _ (coverAdd m c t _ _ _ _)
          iexact Hg
        isplitl [Ho]; · iexact Ho
        isplitl [H0]; · iexact H0
        isplitl [H1]; · iexact H1
        isplitl [H2]; · iexact H2
        iexists _; iexact H3
      · -- a middle stretch that skips
        rw [accAt_skip m c t h0 ha]
        iintro ⟨⟨HS, Hg⟩, Ho, ⟨%d0, H0⟩, ⟨%d1, H1⟩, ⟨%d2, H2⟩, ⟨%d3, H3⟩⟩
        iapply (runSkip (F := F) c (grid0.coords t) (ms0 t) (hs0 t) (ms1 t) (hs1 t) (ms2 t) (hs2 t) (ms3 t) (hs3 t) accM (Memref.isWhole_whole _) hn1 (fun h => ha ((hcond2 t).mp h)) hn3 Set.univ _)
        isplitl [HS Hg]
        · isplitl [HS]; · iexact HS
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA_eq]
  iintro ⟨HS, Hg⟩
  isplitl [HS]
  · iexists _; iexact HS
  iexact Hg

/-! ## The run and the frame -/

set_option backward.isDefEq.respectTransparency.types false in
/-- Every weakly fair execution of the program terminates, faulting nowhere, with every array of the region at what
    the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- An argument buffer is no array of the region and is unscoped, so the run's post gives it back as the region found
    it, which is as launched. -/
theorem arg_kept (r : PUnit × MemSt nD τ sig (Elt F)) (h : Pipeline.FramePost cfgs (dats m) 0 (V m) r) (c : Dev nD) (b : Ref sig .tc)
    (hb : b = main_arg0 ∨ b = main_arg1 ∨ b = main_arg2 ∨ b = main_arg3 ∨ b = main_arg4) :
    r.2.mem ((c.tc : Thread nD τ).loc b) = m ((c.tc : Thread nD τ).loc b) := by
  refine ((h c).2 b ?_).trans (V_arg m c b hb)
  rcases hb with rfl | rfl | rfl | rfl | rfl <;> exact Pipeline.mem_restRefs_of _ rfl (by decide)

/-- The frame: the program runs to the end and its argument buffers end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨arg_kept m r h c _ (.inl rfl), arg_kept m r h c _ (.inr (.inl rfl)),
    arg_kept m r h c _ (.inr (.inr (.inl rfl))), arg_kept m r h c _ (.inr (.inr (.inr (.inl rfl)))), arg_kept m r h c _ (.inr (.inr (.inr (.inr rfl))))⟩) (run_main m ρ)

end Cert.Kernel.Fr

end
-- ==== Proof.Spec.lean ====
/-
  The specification both programs are read against: a dense product of the activations with a block lower-triangular
  weight matrix, plus a bias row.

  The weight matrix `Wmat` has 4096 rows and 4096 columns and is assembled from three blocks laid side by side:
  columns 0–1023 hold the 1024-row block `w0` on top of zeros, columns 1024–2047 hold the 2048-row block `w1` on top
  of zeros, and columns 2048–4095 hold the full-height block `w2`. The padding value `z` is kept as a parameter.
  The result is `G x w0 w1 w2 b (r, c) = (∑ k, x (r, k) · Wmat (k, c)) + b c` over the extended reals.

  The second form `tiled` computes the same entry the way a tiled accumulation does: the contraction axis is cut into
  four stretches of 1024, the partial sums are added in order starting from zero, and a stretch is left out when the
  column's block `j = c / 1024` makes every weight of that stretch a padding zero (stretch `s` is kept iff `2 ≤ j` or
  `s ≤ j`).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![8192, 4096]⟩
abbrev SW0 : Shape := ⟨2, ![1024, 1024]⟩
abbrev SW1 : Shape := ⟨2, ![2048, 1024]⟩
abbrev SW2 : Shape := ⟨2, ![4096, 2048]⟩
abbrev SB : Shape := ⟨1, ![4096]⟩
abbrev SW : Shape := ⟨2, ![4096, 4096]⟩

/-- Entry `(k, c)` of the assembled weight matrix, with `z` in the padded places. -/
def Wmat {α : Type} (w0 : SW0.Idx → α) (w1 : SW1.Idx → α) (w2 : SW2.Idx → α) (z : α) (k c : Fin 4096) : α :=
  if h0 : c.val < 1024 then
    (if hk : k.val < 1024 then w0 (ix2 (⟨k.val, hk⟩ : Fin 1024) (⟨c.val, h0⟩ : Fin 1024)) else z)
  else if h1 : c.val < 2048 then
    (if hk : k.val < 2048 then w1 (ix2 (⟨k.val, hk⟩ : Fin 2048) (⟨c.val - 1024, by omega⟩ : Fin 1024)) else z)
  else w2 (ix2 k (⟨c.val - 2048, by omega⟩ : Fin 2048))

/-- The result array: the matrix product with the assembled weights, plus the bias of the column. -/
def G (x : SX.Idx → EReal) (w0 : SW0.Idx → EReal) (w1 : SW1.Idx → EReal) (w2 : SW2.Idx → EReal) (b : SB.Idx → EReal) :
    SX.Idx → EReal :=
  fun i => (∑ k : Fin 4096, x (ix2 (i 0) k) * Wmat w0 w1 w2 0 k (i 1)) + b (ix1 (i 1))

/-- Stretch `s` of the contraction axis contributes to column block `j`. -/
def keeps (j s : ℕ) : Prop := 2 ≤ j ∨ s ≤ j

instance (j s : ℕ) : Decidable (keeps j s) := by unfold keeps; infer_instance

/-- The partial sum over stretch `s` (positions `1024 s` to `1024 s + 1023`) for row `r` and column `c`. -/
def part (x : SX.Idx → EReal) (W : Fin 4096 → Fin 4096 → EReal) (r : Fin 8192) (c : Fin 4096) (s : Fin 4) : EReal :=
  ∑ q : Fin 1024, x (ix2 r (⟨1024 * s.val + q.val, by omega⟩ : Fin 4096)) * W (⟨1024 * s.val + q.val, by omega⟩ : Fin 4096) c

/-- The tiled accumulation of one entry: zero, plus the kept stretches in order, plus the bias. -/
def tiled (x : SX.Idx → EReal) (W : Fin 4096 → Fin 4096 → EReal) (b : SB.Idx → EReal) (r : Fin 8192) (c : Fin 4096) : EReal :=
  let j := c.val / 1024
  let a0 : EReal := 0 + part x W r c 0
  let a1 : EReal := if keeps j 1 then a0 + part x W r c 1 else a0
  let a2 : EReal := if keeps j 2 then a1 + part x W r c 2 else a1
  let a3 : EReal := if keeps j 3 then a2 + part x W r c 3 else a2
  a3 + b (ix1 c)

end Cert.Spec

end
-- ==== Proof.PiecesRun.lean ====
/-
  What each run of the kernel body leaves in the accumulator and in the output's staging buffer.

  Every store of the body goes through the whole-buffer rectangle at zero offsets, and every load reads a whole
  buffer.  So a buffer filled by a run reads back as the value of the run's last store into it, and that value is the
  body's arithmetic applied to the contents the run was entered with: the accumulated block
  `k0_pay2 x w acc` (accumulator plus the product of the activation and weight blocks), at a first stretch with the zero block
  `k0_pay1` for the accumulator — the zeros are stored first and read back —, and at a last stretch the output block
  `k0_pay3 acc b` (accumulator plus the bias row `b`) of the accumulator as the stretch leaves it.
  The facts are proved for the runs over arbitrary whole buffers and arbitrary contents, then read at a grid point.
-/
import proofs.«158718_j39599598469144_2_alg».proof.Proof.Frame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of every load and store of the body are zero on both axes. -/
theorem offs_zero : (![0, 0] : Fin 2 → Nat) = fun _ => 0 := funext fun a => by fin_cases a <;> rfl

/-! ## The runs over arbitrary whole buffers -/

/-- A middle stretch that adds leaves the accumulated block of what it was entered with. -/
theorem add_leaves (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : ¬cond3 i)
    (x0 x1 : Vec F S1024x1024 .bf16) (xs : Vec F S1024x1024 .f32) :
    View.canon (runAdd (F := F) c i arg3 harg3 arg4 harg4 arg5 harg5 arg6 harg6 arg7 harg7 hc1 hc2 hc3 x0 x1 xs).1 = k0_pay2 x0 x1 xs := by
  unfold runAdd
  dsimp only
  rw [View.canon_unit_zero (S := S1024x1024) offs_zero]
  simp only [View.readAt_eq_ld, harg3.read_unread, harg4.read_unread, harg7.read_unread,
    View.ld_unit_zero (S := S1024x1024) offs_zero]

/-- A first stretch stores the zero block, reads it back, and leaves the accumulated block over it. -/
theorem first_leaves (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : cond1 i) (hc2 : cond2 i) (hc3 : ¬cond3 i)
    (x0 x1 : Vec F S1024x1024 .bf16) :
    View.canon (runFirst (F := F) c i arg3 harg3 arg4 harg4 arg5 harg5 arg6 harg6 arg7 harg7 hc1 hc2 hc3 x0 x1).1 = k0_pay2 x0 x1 (k0_pay1 (F := F)) := by
  unfold runFirst
  dsimp only
  sl_unfold_words
  rw [View.canon_cons_unit_zero (S := S1024x1024) offs_zero, View.readCov_unit_zero (S := S1024x1024) _ offs_zero]
  simp only [View.readAt_eq_ld, harg3.read_unread, harg4.read_unread, View.ld_unit_zero (S := S1024x1024) offs_zero]

/-- The last stretch, adding, leaves the accumulated block in the accumulator … -/
theorem lastAdd_leaves_acc (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : cond3 i)
    (x0 x1 : Vec F S1024x1024 .bf16) (x2 : Vec F S1x1024 .f32) (xs : Vec F S1024x1024 .f32) :
    View.canon (runLastAdd (F := F) c i arg3 harg3 arg4 harg4 arg5 harg5 arg6 harg6 arg7 harg7 hc1 hc2 hc3 x0 x1 x2 xs).2.1 = k0_pay2 x0 x1 xs := by
  unfold runLastAdd
  dsimp only
  sl_unfold_words
  rw [View.canon_unit_zero (S := S1024x1024) offs_zero]
  simp only [View.readAt_eq_ld, harg3.read_unread, harg4.read_unread, harg7.read_unread,
    View.ld_unit_zero (S := S1024x1024) offs_zero]

/-- … and, reading it back, the output block of it and the bias row in the output's buffer. -/
theorem lastAdd_leaves_out (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : cond2 i) (hc3 : cond3 i)
    (x0 x1 : Vec F S1024x1024 .bf16) (x2 : Vec F S1x1024 .f32) (xs : Vec F S1024x1024 .f32) :
    View.canon (runLastAdd (F := F) c i arg3 harg3 arg4 harg4 arg5 harg5 arg6 harg6 arg7 harg7 hc1 hc2 hc3 x0 x1 x2 xs).1 = k0_pay3 (k0_pay2 x0 x1 xs) x2 := by
  unfold runLastAdd
  dsimp only
  sl_unfold_words
  rw [View.canon_unit_zero (S := S1024x1024) offs_zero, View.readCov_unit_zero (S := S1024x1024) _ offs_zero]
  simp only [View.readAt_eq_ld, harg3.read_unread, harg4.read_unread, harg5.read_unread, harg7.read_unread,
    View.ld_unit_zero (S := S1024x1024) offs_zero, View.ld_unit_zero (S := S1x1024) offs_zero]

/-- The last stretch, skipping, leaves the output block of the accumulator as found and the bias row. -/
theorem lastSkip_leaves_out (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc1 : ¬cond1 i) (hc2 : ¬cond2 i) (hc3 : cond3 i)
    (x2 : Vec F S1x1024 .f32) (xs : Vec F S1024x1024 .f32) :
    View.canon (runLastSkip (F := F) c i arg3 harg3 arg4 harg4 arg5 harg5 arg6 harg6 arg7 harg7 hc1 hc2 hc3 x2 xs).1 = k0_pay3 xs x2 := by
  unfold runLastSkip
  dsimp only
  rw [View.canon_unit_zero (S := S1024x1024) offs_zero]
  simp only [View.readAt_eq_ld, harg5.read_unread, harg7.read_unread,
    View.ld_unit_zero (S := S1024x1024) offs_zero, View.ld_unit_zero (S := S1x1024) offs_zero]

/-! ## Read back over junk, a list of stores is its own closed form -/

theorem accOf_eq_canon (L : List (View.Piece (Elt F) S1024x1024 .f32)) : accOf (F := F) L = View.canon L :=
  View.read_writes_junk_eq_canon _ L
theorem outOf_eq_canon (L : List (View.Piece (Elt F) S1024x1024 .f32)) : outOf (F := F) L = View.canon L :=
  View.read_writes_junk_eq_canon _ L

/-! ## The runs at a grid point -/

variable (m : (ℓ : Loc nD τ sig) → Buf (Elt F) ℓ)

/-- A first stretch leaves the product of its two blocks over the zero block. -/
theorem accOf_atFirst (c : Dev nD) (t : Fin cfg0.N) (h1 : cond1 (grid0.coords t)) (h2 : cond2 (grid0.coords t)) (h3 : ¬cond3 (grid0.coords t)) :
    accOf (atFirst m c t h1 h2 h3).1 = k0_pay2 (iblk m c 0 t) (iblk m c 1 t) (k0_pay1 (F := F)) :=
  (accOf_eq_canon (atFirst m c t h1 h2 h3).1).trans
    (first_leaves (F := F) c (grid0.coords t) (ms0 t) (hs0 t) (ms1 t) (hs1 t) (ms2 t) (hs2 t) (ms3 t) (hs3 t) accM (Memref.isWhole_whole _) h1 h2 h3 (iblk m c 0 t) (iblk m c 1 t))

/-- A middle stretch that adds leaves the accumulator it found plus the product of its two blocks. -/
theorem accOf_atAdd (c : Dev nD) (t : Fin cfg0.N) (h1 : ¬cond1 (grid0.coords t)) (h2 : cond2 (grid0.coords t)) (h3 : ¬cond3 (grid0.coords t))
    (xs : Vec F S1024x1024 .f32) :
    accOf (atAdd m c t h1 h2 h3 xs).1 = k0_pay2 (iblk m c 0 t) (iblk m c 1 t) xs :=
  (accOf_eq_canon (atAdd m c t h1 h2 h3 xs).1).trans
    (add_leaves (F := F) c (grid0.coords t) (ms0 t) (hs0 t) (ms1 t) (hs1 t) (ms2 t) (hs2 t) (ms3 t) (hs3 t) accM (Memref.isWhole_whole _) h1 h2 h3 (iblk m c 0 t) (iblk m c 1 t) xs)

/-- The last stretch, adding: the accumulator likewise … -/
theorem accOf_atLastAdd (c : Dev nD) (t : Fin cfg0.N) (h1 : ¬cond1 (grid0.coords t)) (h2 : cond2 (grid0.coords t)) (h3 : cond3 (grid0.coords t))
    (xs : Vec F S1024x1024 .f32) :
    accOf (atLastAdd m c t h1 h2 h3 xs).2.1 = k0_pay2 (iblk m c 0 t) (iblk m c 1 t) xs :=
  (accOf_eq_canon (atLastAdd m c t h1 h2 h3 xs).2.1).trans
    (lastAdd_leaves_acc (F := F) c (grid0.coords t) (ms0 t) (hs0 t) (ms1 t) (hs1 t) (ms2 t) (hs2 t) (ms3 t) (hs3 t) accM (Memref.isWhole_whole _) h1 h2 h3 (iblk m c 0 t) (iblk m c 1 t) (iblk m c 2 t) xs)

/-- … and the output's buffer holds that accumulator plus the bias block. -/
theorem outOf_atLastAdd (c : Dev nD) (t : Fin cfg0.N) (h1 : ¬cond1 (grid0.coords t)) (h2 : cond2 (grid0.coords t)) (h3 : cond3 (grid0.coords t))
    (xs : Vec F S1024x1024 .f32) :
    outOf (atLastAdd m c t h1 h2 h3 xs).1 = k0_pay3 (k0_pay2 (iblk m c 0 t) (iblk m c 1 t) xs) (iblk m c 2 t) :=
  (outOf_eq_canon (atLastAdd m c t h1 h2 h3 xs).1).trans
    (lastAdd_leaves_out (F := F) c (grid0.coords t) (ms0 t) (hs0 t) (ms1 t) (hs1 t) (ms2 t) (hs2 t) (ms3 t) (hs3 t) accM (Memref.isWhole_whole _) h1 h2 h3 (iblk m c 0 t) (iblk m c 1 t) (iblk m c 2 t) xs)

/-- The last stretch, skipping: the output's buffer holds the accumulator as found plus the bias block. -/
theorem outOf_atLastSkip (c : Dev nD) (t : Fin cfg0.N) (h1 : ¬cond1 (grid0.coords t)) (h2 : ¬cond2 (grid0.coords t)) (h3 : cond3 (grid0.coords t))
    (xs : Vec F S1024x1024 .f32) :
    outOf (atLastSkip m c t h1 h2 h3 xs).1 = k0_pay3 xs (iblk m c 2 t) :=
  (outOf_eq_canon (atLastSkip m c t h1 h2 h3 xs).1).trans
    (lastSkip_leaves_out (F := F) c (grid0.coords t) (ms0 t) (hs0 t) (ms1 t) (hs1 t) (ms2 t) (hs2 t) (ms3 t) (hs3 t) accM (Memref.isWhole_whole _) h1 h2 h3 (iblk m c 2 t) xs)

end Cert.KernelIdeal.Val

end
-- ==== Proof.Payloads.lean ====
/-
  The three values the kernel body stores, read at one element, over the extended reals.

  The zero block is `0` everywhere.  The accumulated block at `(p, q)` is the accumulator found there plus the
  sum over the stretch's 1024 contraction positions `kk` of the activation block at `(p, kk)` times the weight block at
  `(kk, q)`: the shape casts are identities, the product is taken into a zero splat and then added to the accumulator.
  The output block at `(p, q)` is the accumulator there plus the bias row at `q`: the row is broadcast over the
  1024 rows of the block.
-/
import proofs.«158718_j39599598469144_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx
open scoped BigOperators

/-! ## The product's operand indices -/

/-- The left operand is read at the output's row … -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … and the contraction position; -/
theorem lhs_col (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
/-- the right operand at the contraction position … -/
theorem rhs_row (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
/-- … and the output's column. -/
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into a zero splat, at `(p, q)`: the sum over the contraction positions. -/
theorem product_apply (x w : FVec Ideal S1024x1024 .bf16) (p q : Fin 1024) :
    matmul (F := Ideal) dot_S1024x1024_S1024x1024_S1024x1024_1_0_0_1_n_n none x w (constant (F := Ideal) S1024x1024 .f32 0x00000000#32) (ix2 p q)
      = ∑ kk : Fin 1024, x (ix2 p kk) * w (ix2 kk q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-! ## The stored values at an element -/

/-- The zero block. -/
theorem pay1_apply (p q : Fin 1024) : k0_pay1 (F := Ideal) (ix2 p q) = (0 : EReal) := by
  unfold k0_pay1
  rw [shapeCast_self]
  exact Ideal.ofBits_zero_f32

/-- The accumulated block: the accumulator found plus the stretch's product. -/
theorem pay2_apply (x w : Vec Ideal S1024x1024 .bf16) (a : Vec Ideal S1024x1024 .f32) (p q : Fin 1024) :
    k0_pay2 (F := Ideal) x w a (ix2 p q) = a (ix2 p q) + ∑ kk : Fin 1024, x (ix2 p kk) * w (ix2 kk q) := by
  unfold k0_pay2
  rw [shapeCast_self, shapeCast_self, shapeCast_self]
  exact congrArg (a (ix2 p q) + ·) (product_apply x w p q)

/-- The output block: the accumulator plus the bias row. -/
theorem pay3_apply (a : Vec Ideal S1024x1024 .f32) (b : Vec Ideal S1x1024 .f32) (p q : Fin 1024) :
    k0_pay3 (F := Ideal) a b (ix2 p q) = a (ix2 p q) + b (ix2 (0 : Fin 1) q) := by
  unfold k0_pay3
  rw [shapeCast_self]
  exact congrArg (a (ix2 p q) + ·) (broadcastTo_1b_ab_apply b broadcasts_S1x1024_S1024x1024 p q)

end Cert.KernelIdeal.Val

end
-- ==== Proof.WeightRead.lean ====
/-
  The assembled weight matrix read at an entry.

  Three blocks are padded below with a scalar to the common height 4096 and laid side by side along the column
  axis. Entry `(k, c)` of the result is therefore decided by the column: columns 0–1023 read the first block (or
  the padding value when the row is past its 1024 rows), columns 1024–2047 read the second block at column
  `c - 1024` (or the padding value when the row is past its 2048 rows), and the remaining columns read the third
  block at column `c - 2048`. This is the function `Wmat` of the specification.

  The padding scalar itself is the integer zero converted to a float, which at the ideal instance is the real
  number zero.
-/
import proofs.«158718_j39599598469144_2_alg».proof.Proof.Spec
import Idealize.ShloMosaic.Lib.Pipeline.Value
import Idealize.ShloMosaic.Lib.KernelVsHost

noncomputable section

namespace Cert.Spec

open Idealize.ShloMosaic Idealize.ShloMosaic.ValueIdx

/-- A block of `n` rows padded below to 4096 rows, read at row `k` and column `c`: the block's entry when the
    row is one of the block's, the padding value otherwise. -/
theorem pad_rows_apply {α : Type} {n m hi : Nat} (w : (⟨2, ![n, m]⟩ : Shape).Idx → α)
    (z : (⟨0, ![]⟩ : Shape).Idx → α)
    (hp : (⟨2, ![n, m]⟩ : Shape).Pads (![0, 0] : Fin 2 → Nat) ![hi, 0] ![0, 0] ⟨2, ![4096, m]⟩)
    (hs : 0 < (⟨0, ![]⟩ : Shape).numel) (k : Fin 4096) (c : Fin m) :
    pad ⟨2, ![4096, m]⟩ ![0, 0] ![hi, 0] ![0, 0] w z hp hs (ix2 k c)
      = if hk : k.val < n then w (ix2 (⟨k.val, hk⟩ : Fin n) c) else z ix0 := by
  by_cases hk : k.val < n
  · rw [dif_pos hk]
    refine pad_apply_of_inside _ _ _ w z hp hs (ix2 k c) (ix2 (⟨k.val, hk⟩ : Fin n) c) ?_
    intro a
    match a with
    | ⟨0, _⟩ => show k.val = 0 + k.val * (0 + 1); omega
    | ⟨1, _⟩ => show c.val = 0 + c.val * (0 + 1); omega
  · rw [dif_neg hk]
    refine (pad_apply_of_not_inside _ _ _ w z hp hs (ix2 k c) (⟨0, Nat.zero_lt_two⟩ : Fin 2) ?_).trans
      (congrArg z (eq_ix0 _))
    intro h
    have h3 : (k.val - 0) / (0 + 1) < n := h.2.2
    rw [Nat.sub_zero, Nat.div_one] at h3
    exact hk h3

/-- Three arrays of 4096 rows and 1024, 1024 and 2048 columns laid side by side, read at entry `(k, c)`: the
    array whose span of columns holds `c`, at the column counted from the start of that span. -/
theorem concat3_apply {α : Type} (p0 p1 : (⟨2, ![4096, 1024]⟩ : Shape).Idx → α)
    (p2 : (⟨2, ![4096, 2048]⟩ : Shape).Idx → α)
    (hc : Shape.Concatenates [(⟨2, ![4096, 1024]⟩ : Shape), ⟨2, ![4096, 1024]⟩, ⟨2, ![4096, 2048]⟩] SW 1)
    (k c : Fin 4096) :
    concatenate SW 1 [⟨⟨2, ![4096, 1024]⟩, p0⟩, ⟨⟨2, ![4096, 1024]⟩, p1⟩, ⟨⟨2, ![4096, 2048]⟩, p2⟩] hc (ix2 k c)
      = if h0 : c.val < 1024 then p0 (ix2 k (⟨c.val, h0⟩ : Fin 1024))
        else if h1 : c.val < 2048 then p1 (ix2 k (⟨c.val - 1024, by omega⟩ : Fin 1024))
        else p2 (ix2 k (⟨c.val - 2048, by omega⟩ : Fin 2048)) := by
  have hoff : ∀ {n : Nat} (i : (⟨2, ![4096, n]⟩ : Shape).Idx) (hr : (⟨2, ![4096, n]⟩ : Shape).rank = SW.rank),
      (i 0).val = k.val → ∀ b : Fin (⟨2, ![4096, n]⟩ : Shape).rank, b.cast hr ≠ (1 : Fin SW.rank) →
        (i b).val = ((ix2 k c : SW.Idx) (b.cast hr)).val := by
    intro n i hr hi b
    match b with
    | ⟨0, _⟩ => exact fun _ => hi
    | ⟨1, _⟩ => exact fun h => absurd rfl h
  by_cases h0 : c.val < 1024
  · rw [dif_pos h0]
    exact concatenate_apply_piece (1 : Fin SW.rank)
      [⟨⟨2, ![4096, 1024]⟩, p0⟩, ⟨⟨2, ![4096, 1024]⟩, p1⟩, ⟨⟨2, ![4096, 2048]⟩, p2⟩] hc (ix2 k c) 0
      (show (0 : Nat) < 3 by decide) ⟨2, ![4096, 1024]⟩ p0 rfl rfl 0 rfl
      (ix2 k (⟨c.val, h0⟩ : Fin 1024)) (hoff (n := 1024) _ rfl rfl) (show 0 + c.val = c.val by omega)
  · rw [dif_neg h0]
    by_cases h1 : c.val < 2048
    · rw [dif_pos h1]
      exact concatenate_apply_piece (1 : Fin SW.rank)
        [⟨⟨2, ![4096, 1024]⟩, p0⟩, ⟨⟨2, ![4096, 1024]⟩, p1⟩, ⟨⟨2, ![4096, 2048]⟩, p2⟩] hc (ix2 k c) 1
        (show (1 : Nat) < 3 by decide) ⟨2, ![4096, 1024]⟩ p1 rfl rfl 1024 rfl
        (ix2 k (⟨c.val - 1024, by omega⟩ : Fin 1024)) (hoff (n := 1024) _ rfl rfl)
        (show 1024 + (c.val - 1024) = c.val by omega)
    · rw [dif_neg h1]
      have hc2 : c.val < 4096 := c.isLt
      exact concatenate_apply_piece (1 : Fin SW.rank)
        [⟨⟨2, ![4096, 1024]⟩, p0⟩, ⟨⟨2, ![4096, 1024]⟩, p1⟩, ⟨⟨2, ![4096, 2048]⟩, p2⟩] hc (ix2 k c) 2
        (show (2 : Nat) < 3 by decide) ⟨2, ![4096, 2048]⟩ p2 rfl rfl 2048 rfl
        (ix2 k (⟨c.val - 2048, by omega⟩ : Fin 2048)) (hoff (n := 2048) _ rfl rfl)
        (show 2048 + (c.val - 2048) = c.val by omega)

/-- The three padded blocks laid side by side, read at entry `(k, c)`, are the assembled weight matrix. -/
theorem concat_pad_apply {α : Type} (w0 : SW0.Idx → α) (w1 : SW1.Idx → α) (w2 : SW2.Idx → α)
    (z0 z1 z2 : (⟨0, ![]⟩ : Shape).Idx → α) (z : α)
    (hp0 : SW0.Pads (![0, 0] : Fin 2 → Nat) ![3072, 0] ![0, 0] ⟨2, ![4096, 1024]⟩)
    (hp1 : SW1.Pads (![0, 0] : Fin 2 → Nat) ![2048, 0] ![0, 0] ⟨2, ![4096, 1024]⟩)
    (hp2 : SW2.Pads (![0, 0] : Fin 2 → Nat) ![0, 0] ![0, 0] ⟨2, ![4096, 2048]⟩)
    (hs : 0 < (⟨0, ![]⟩ : Shape).numel)
    (hc : Shape.Concatenates [(⟨2, ![4096, 1024]⟩ : Shape), ⟨2, ![4096, 1024]⟩, ⟨2, ![4096, 2048]⟩] SW 1)
    (hz0 : z0 ix0 = z) (hz1 : z1 ix0 = z) (hz2 : z2 ix0 = z)
    (k c : Fin 4096) :
    concatenate SW 1
        [⟨⟨2, ![4096, 1024]⟩, pad ⟨2, ![4096, 1024]⟩ ![0, 0] ![3072, 0] ![0, 0] w0 z0 hp0 hs⟩,
         ⟨⟨2, ![4096, 1024]⟩, pad ⟨2, ![4096, 1024]⟩ ![0, 0] ![2048, 0] ![0, 0] w1 z1 hp1 hs⟩,
         ⟨⟨2, ![4096, 2048]⟩, pad ⟨2, ![4096, 2048]⟩ ![0, 0] ![0, 0] ![0, 0] w2 z2 hp2 hs⟩] hc (ix2 k c)
      = Wmat w0 w1 w2 z k c := by
  rw [concat3_apply]
  unfold Wmat
  by_cases h0 : c.val < 1024
  · rw [dif_pos h0, dif_pos h0, pad_rows_apply w0 z0 hp0 hs k (⟨c.val, h0⟩ : Fin 1024), hz0]
  · rw [dif_neg h0, dif_neg h0]
    by_cases h1 : c.val < 2048
    · rw [dif_pos h1, dif_pos h1, pad_rows_apply w1 z1 hp1 hs k (⟨c.val - 1024, by omega⟩ : Fin 1024), hz1]
    · rw [dif_neg h1, dif_neg h1, pad_rows_apply w2 z2 hp2 hs k (⟨c.val - 2048, by omega⟩ : Fin 2048),
        dif_pos k.isLt]

/-- The padding scalar of the reference: the integer zero converted to a 32-bit float is the real zero. -/
theorem pad_zero_f32 (i : (⟨0, ![]⟩ : Shape).Idx) :
    (sitofp (F := Ideal) .f32 (constantI ⟨0, ![]⟩ 32 0#32)) i = (0 : EReal) := by
  show ((((0#32 : BitVec 32).toInt : ℝ)) : EReal) = 0
  simp

/-- The padding scalar of the kernel's program: the integer zero converted to a 16-bit float is the real zero. -/
theorem pad_zero_bf16 (i : (⟨0, ![]⟩ : Shape).Idx) :
    (sitofp (F := Ideal) .bf16 (constantI ⟨0, ![]⟩ 32 0#32)) i = (0 : EReal) := by
  show ((((0#32 : BitVec 32).toInt : ℝ)) : EReal) = 0
  simp

end Cert.Spec

end
-- ==== Proof.EntryValues.lean ====
/-
  What the tiled region's three input windows hold, entry by entry.

  Before the region the host rounds the activations and the three weight blocks (a rounding that is the identity over
  the extended reals), pads each weight block below with zeros to 4096 rows, lays the padded blocks side by side, and
  views the bias as a single row. So when the region is entered the activations window's array is the launched
  activations, the weight window's array at `(k, c)` is the assembled weight matrix of the specification with padding
  value zero, and the bias window's array at `(0, q)` is the launched bias at `q`.

  The grid has 8 × 4 × 4 points in row-major order, so point `t` has coordinates `i = t / 16`, `j = (t / 4) % 4` and
  `k = t % 4`. The activations window stages block `(i, k)`, the weight window block `(k, j)` and the bias window block
  `(0, j)`, each of 1024-wide tiles; an entry of a block sits in the array at the block's index times 1024 plus the
  entry's own coordinate, on each axis.
-/
import proofs.«158718_j39599598469144_2_alg».proof.Proof.Entry
import proofs.«158718_j39599598469144_2_alg».proof.Proof.WeightRead
import proofs.«158718_j39599598469144_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (Dat Cfg Window BodyObligation cellOf)

variable (m : (ℓ : Loc nD τ sig) → Buf (Elt Ideal) ℓ)

/-- The launch contents of the five arguments on core `c`. -/
abbrev A0 (c : Dev nD) : S8192x4096.Idx → EReal := m ((c : Thread nD τ).loc main_arg0)
abbrev A1 (c : Dev nD) : S1024x1024.Idx → EReal := m ((c : Thread nD τ).loc main_arg1)
abbrev A2 (c : Dev nD) : S2048x1024.Idx → EReal := m ((c : Thread nD τ).loc main_arg2)
abbrev A3 (c : Dev nD) : S4096x2048.Idx → EReal := m ((c : Thread nD τ).loc main_arg3)
abbrev A4 (c : Dev nD) : S4096.Idx → EReal := m ((c : Thread nD τ).loc main_arg4)

/-! ## The windows' arrays when the region is entered -/

/-- An operation with three operands leaves in its result buffer its function of the three operands' contents, each
    read at its own buffer. -/
theorem nary3_result {x a b y : Ref sig .tc}
    (f : ((k : Fin 3) → ((![x, a, b] : Fin 3 → Ref sig .tc) k).ty.Contents (Elt Ideal)) → y.ty.Contents (Elt Ideal))
    (hxs hy) (W : Valuation τ sig (Elt Ideal)) :
    (nary (τ := τ) ![x, a, b] y f hxs hy).result W (Proc.devRef .tc y)
      = f (Fin.cons (W (Proc.devRef .tc x)) (Fin.cons (W (Proc.devRef .tc a))
          (Fin.cons (W (Proc.devRef .tc b)) (fun i => i.elim0)))) := by
  rw [nary_result]; congr 1; funext k; fin_cases k <;> rfl

/-- The activations window's array is the launched activations: rounding is the identity here. -/
theorem V_main_v8 (c : Dev nD) : (V m c main_v8 : S8192x4096.Idx → EReal) = A0 m c := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The bias window's array is the launched bias viewed as one row. -/
theorem V_main_v7 (c : Dev nD) :
    (V m c main_v7 : S1x4096.Idx → EReal) = shapeCast S1x4096 (A4 m c) shapeCasts_S4096_S1x4096 := by
  dsimp only [V]
  simp only [hostOps0, hostOps0_1, hostOps0_2, hostOps0_3, hostOps0_4, hostOps0_5, hostOps0_6, List.flatten_cons,
    List.flatten_nil, List.append_nil, List.cons_append, List.nil_append]
  after_results
  rfl

/-- The weight window's array is the three launched weight blocks, each padded below with the converted integer
    zero, laid side by side. -/
theorem V_main_v6 (c : Dev nD) :
    (V m c main_v6 : S4096x4096.Idx → EReal)
      = concatenate S4096x4096 1
          [⟨S4096x1024, pad S4096x1024 ![0, 0] ![3072, 0] ![0, 0] (A1 m c) (sitofp (F := Ideal) .bf16 (constantI S_ 32 0#32)) pads_S1024x1024_S4096x1024_030720_000 h_S_⟩,
           ⟨S4096x1024, pad S4096x1024 ![0, 0] ![2048, 0] ![0, 0] (A2 m c) (sitofp (F := Ideal) .bf16 (constantI S_ 32 0#32)) pads_S2048x1024_S4096x1024_020480_000 h_S_⟩,
           ⟨S4096x2048, pad S4096x2048 ![0, 0] ![0, 0] ![0, 0] (A3 m c) (sitofp (F := Ideal) .bf16 (constantI S_ 32 0#32)) pads_S4096x2048_S4096x2048_000_000 h_S_⟩]
          concatenates_S4096x1024_S4096x1024_S4096x2048_S4096x4096_d1 := by
  dsimp only [V]
  simp only [hostOps0, hostOps0_1, hostOps0_2, hostOps0_3, hostOps0_4, hostOps0_5, hostOps0_6, List.flatten_cons,
    List.flatten_nil, List.append_nil, List.cons_append, List.nil_append]
  simp only [after_cons, after_nil]
  repeat (first
    | rw [nullary_result] | rw [unary_result] | rw [binary_result] | rw [reshape_result] | rw [nary3_result]
    | (rw [nullary_result_ne]; rotate_left; decide)
    | (rw [unary_result_ne]; rotate_left; decide)
    | (rw [binary_result_ne]; rotate_left; decide)
    | (rw [reshape_result_ne]; rotate_left; decide)
    | (rw [nary_result_ne]; rotate_left; decide))
  rfl

/-- The weight window's array at entry `(k, c')` is the specification's assembled weight matrix. -/
theorem V_main_v6_apply (c : Dev nD) (k c' : Fin 4096) :
    V m c main_v6 (ix2 k c') = Cert.Spec.Wmat (A1 m c) (A2 m c) (A3 m c) (0 : EReal) k c' :=
  (congrFun (V_main_v6 m c) (ix2 k c')).trans
    (Cert.Spec.concat_pad_apply (A1 m c) (A2 m c) (A3 m c) _ _ _ (0 : EReal) _ _ _ _ _
      (Cert.Spec.pad_zero_bf16 ix0) (Cert.Spec.pad_zero_bf16 ix0) (Cert.Spec.pad_zero_bf16 ix0) k c')

/-- The bias window's array at entry `(0, q)` is the launched bias at `q`. -/
theorem V_main_v7_apply (c : Dev nD) (q : Fin 4096) :
    V m c main_v7 (ix2 (0 : Fin 1) q) = A4 m c (ix1 q) :=
  (congrFun (V_main_v7 m c) (ix2 (0 : Fin 1) q)).trans
    (shapeCast_apply (A4 m c) shapeCasts_S4096_S1x4096 (ix2 (0 : Fin 1) q) (ix1 q) (by
      rw [Shape.rowMajor_val_one, Shape.rowMajor_val_two]
      show q.val = 0 * 4096 + q.val
      omega))

/-! ## The blocks the windows stage, read at an entry -/

/-- The grid has 128 points. -/
theorem t_lt (t : Fin cfg0.N) : t.val < 128 := lt_of_lt_of_eq t.isLt N_0

theorem row8_lt (t : Fin cfg0.N) (p : Fin 1024) : 1024 * (t.val / 16) + p.val < 8192 := by
  have := t_lt t; omega
theorem inner_lt (t : Fin cfg0.N) (p : Fin 1024) : 1024 * (t.val % 4) + p.val < 4096 := by omega
theorem col_lt (t : Fin cfg0.N) (q : Fin 1024) : 1024 * ((t.val / 4) % 4) + q.val < 4096 := by omega

/-- The printed index maps, decided over the grid: at point `t` the activations window is at block
    `(t / 16, t % 4)`, the weight window at block `(t % 4, (t / 4) % 4)`, the bias window at block `(0, (t / 4) % 4)`. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = (t.val / 4) % 4
    ∧ win0_2.index t (0 : Fin 2) = 0 ∧ win0_2.index t (1 : Fin 2) = (t.val / 4) % 4 :=
  (by decide +kernel : ∀ t : Fin grid0.N, _)

/-- The activations block at point `t`, entry `(p, q)`: the array at row `1024 (t / 16) + p`, column `1024 (t % 4) + q`. -/
theorem iblk0_apply (c : Dev nD) (t : Fin cfg0.N) (p q : Fin 1024) :
    iblk m c 0 t (ix2 p q)
      = V m c main_v8 (ix2 (⟨1024 * (t.val / 16) + p.val, row8_lt t p⟩ : Fin 8192)
          (⟨1024 * (t.val % 4) + q.val, inner_lt t q⟩ : Fin 4096)) := by
  obtain ⟨e0, e1, -⟩ := idx_facts t
  unfold iblk
  show V m c main_v8 (((cfg0.win 0).blk t).view.emb (ix2 p q)) = V m c main_v8 _
  refine congrArg (V m c main_v8) (funext fun a => Fin.ext ?_)
  match a with
  | ⟨0, _⟩ =>
    show win0_0.index t (0 : Fin 2) * 1024 + 1 * p.val = 1024 * (t.val / 16) + p.val
    omega
  | ⟨1, _⟩ =>
    show win0_0.index t (1 : Fin 2) * 1024 + 1 * q.val = 1024 * (t.val % 4) + q.val
    omega

/-- The weight block at point `t`, entry `(p, q)`: the array at row `1024 (t % 4) + p`, column `1024 ((t / 4) % 4) + q`. -/
theorem iblk1_apply (c : Dev nD) (t : Fin cfg0.N) (p q : Fin 1024) :
    iblk m c 1 t (ix2 p q)
      = V m c main_v6 (ix2 (⟨1024 * (t.val % 4) + p.val, inner_lt t p⟩ : Fin 4096)
          (⟨1024 * ((t.val / 4) % 4) + q.val, col_lt t q⟩ : Fin 4096)) := by
  obtain ⟨-, -, e0, e1, -⟩ := idx_facts t
  unfold iblk
  show V m c main_v6 (((cfg0.win 1).blk t).view.emb (ix2 p q)) = V m c main_v6 _
  refine congrArg (V m c main_v6) (funext fun a => Fin.ext ?_)
  match a with
  | ⟨0, _⟩ =>
    show win0_1.index t (0 : Fin 2) * 1024 + 1 * p.val = 1024 * (t.val % 4) + p.val
    omega
  | ⟨1, _⟩ =>
    show win0_1.index t (1 : Fin 2) * 1024 + 1 * q.val = 1024 * ((t.val / 4) % 4) + q.val
    omega

/-- The bias block at point `t`, entry `(0, q)`: the array at row 0, column `1024 ((t / 4) % 4) + q`. -/
theorem iblk2_apply (c : Dev nD) (t : Fin cfg0.N) (q : Fin 1024) :
    iblk m c 2 t (ix2 (0 : Fin 1) q)
      = V m c main_v7 (ix2 (0 : Fin 1) (⟨1024 * ((t.val / 4) % 4) + q.val, col_lt t q⟩ : Fin 4096)) := by
  obtain ⟨-, -, -, -, e0, e1⟩ := idx_facts t
  unfold iblk
  show V m c main_v7 (((cfg0.win 2).blk t).view.emb (ix2 (0 : Fin 1) q)) = V m c main_v7 _
  refine congrArg (V m c main_v7) (funext fun a => Fin.ext ?_)
  match a with
  | ⟨0, _⟩ =>
    show win0_2.index t (0 : Fin 2) * 1 + 1 * 0 = 0
    omega
  | ⟨1, _⟩ =>
    show win0_2.index t (1 : Fin 2) * 1024 + 1 * q.val = 1024 * ((t.val / 4) % 4) + q.val
    omega

/-! ## The blocks in terms of the launched arguments -/

/-- The activations block at point `t` is the launched activations' tile `(t / 16, t % 4)`. -/
theorem iblk0_eq (c : Dev nD) (t : Fin cfg0.N) (p q : Fin 1024) :
    iblk m c 0 t (ix2 p q)
      = A0 m c (ix2 (⟨1024 * (t.val / 16) + p.val, row8_lt t p⟩ : Fin 8192)
          (⟨1024 * (t.val % 4) + q.val, inner_lt t q⟩ : Fin 4096)) :=
  (iblk0_apply m c t p q).trans (congrFun (V_main_v8 m c) _)

/-- The weight block at point `t` is the assembled weight matrix's tile `(t % 4, (t / 4) % 4)`. -/
theorem iblk1_eq (c : Dev nD) (t : Fin cfg0.N) (p q : Fin 1024) :
    iblk m c 1 t (ix2 p q)
      = Cert.Spec.Wmat (A1 m c) (A2 m c) (A3 m c) (0 : EReal)
          (⟨1024 * (t.val % 4) + p.val, inner_lt t p⟩ : Fin 4096)
          (⟨1024 * ((t.val / 4) % 4) + q.val, col_lt t q⟩ : Fin 4096) :=
  (iblk1_apply m c t p q).trans (V_main_v6_apply m c _ _)

/-- The bias block at point `t` is the launched bias's stretch `(t / 4) % 4`. -/
theorem iblk2_eq (c : Dev nD) (t : Fin cfg0.N) (q : Fin 1024) :
    iblk m c 2 t (ix2 (0 : Fin 1) q)
      = A4 m c (ix1 (⟨1024 * ((t.val / 4) % 4) + q.val, col_lt t q⟩ : Fin 4096)) :=
  (iblk2_apply m c t q).trans (V_main_v7_apply m c _)

end Cert.KernelIdeal.Val

end
-- ==== Proof.Value.lean ====
/-
  The kernel's value: after the run the result buffer holds, entry by entry, the tiled accumulation of the
  specification.

  By induction on the grid's points the accumulator after point `n` holds, at `(p, q)`, zero plus the partial sums of
  the stretches `0 … n % 4` that the column block keeps, for array row `1024 (n / 16) + p` and array column
  `1024 ((n / 4) % 4) + q`: a first stretch starts from zero, a later stretch adds its product of the staged blocks
  or leaves the accumulator alone, and the staged blocks are the corresponding blocks of the activations and of the
  padded weight matrix.  A last stretch writes accumulator plus bias into the output block, the 32 output blocks tile
  the result array, and so the array is the function `Gk`.
-/
import proofs.«158718_j39599598469144_2_alg».proof.Proof.Frame
import proofs.«158718_j39599598469144_2_alg».proof.Proof.Spec
import proofs.«158718_j39599598469144_2_alg».proof.Proof.PiecesRun
import proofs.«158718_j39599598469144_2_alg».proof.Proof.Payloads
import proofs.«158718_j39599598469144_2_alg».proof.Proof.EntryValues
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat Cfg Window)

section Args
variable (m : (ℓ : Loc nD τ sig) → Buf (Elt Ideal) ℓ) (c : Dev nD)
/-- The activations, the three weight blocks and the bias as launched. -/
abbrev aX : SX.Idx → EReal := m ((c : Thread nD τ).loc main_arg0)
abbrev aW0 : SW0.Idx → EReal := m ((c : Thread nD τ).loc main_arg1)
abbrev aW1 : SW1.Idx → EReal := m ((c : Thread nD τ).loc main_arg2)
abbrev aW2 : SW2.Idx → EReal := m ((c : Thread nD τ).loc main_arg3)
abbrev aB : SB.Idx → EReal := m ((c : Thread nD τ).loc main_arg4)
/-- The padded, joined weight matrix. -/
abbrev aW : Fin 4096 → Fin 4096 → EReal := Wmat (aW0 m c) (aW1 m c) (aW2 m c) 0
/-- The staged blocks of the three input windows at a point, as arrays of extended reals. -/
abbrev bX (t : Fin cfg0.N) : Vec Ideal S1024x1024 .bf16 := iblk m c 0 t
abbrev bW (t : Fin cfg0.N) : Vec Ideal S1024x1024 .bf16 := iblk m c 1 t
abbrev bB (t : Fin cfg0.N) : Vec Ideal S1x1024 .f32 := iblk m c 2 t
theorem tlt (t : Fin cfg0.N) : t.val < 128 := lt_of_lt_of_eq t.isLt (show cfg0.N = 128 from N_0)
end Args

variable (m : (ℓ : Loc nD τ sig) → Buf (Elt Ideal) ℓ) (c : Dev nD)

/-! ## The accumulation, stretch by stretch, as a function of the stretch's number -/

/-- The partial sum over stretch `s`, the positions taken modulo the axis so that no bound is asked of `s`. -/
def partN (x : SX.Idx → EReal) (W : Fin 4096 → Fin 4096 → EReal) (r : Fin 8192) (cc : Fin 4096) (s : ℕ) : EReal :=
  ∑ q : Fin 1024, x (ix2 r (⟨(1024 * s + q.val) % 4096, Nat.mod_lt _ (by decide)⟩ : Fin 4096)) * W (⟨(1024 * s + q.val) % 4096, Nat.mod_lt _ (by decide)⟩ : Fin 4096) cc

theorem part_eq_partN (x : SX.Idx → EReal) (W : Fin 4096 → Fin 4096 → EReal) (r : Fin 8192) (cc : Fin 4096) (s : Fin 4) :
    part x W r cc s = partN x W r cc s.val := by
  unfold part partN
  refine Finset.sum_congr rfl fun q _ => ?_
  have e : (⟨1024 * s.val + q.val, by omega⟩ : Fin 4096) = ⟨(1024 * s.val + q.val) % 4096, Nat.mod_lt _ (by decide)⟩ :=
    Fin.ext (by show 1024 * s.val + q.val = (1024 * s.val + q.val) % 4096; exact (Nat.mod_eq_of_lt (by omega)).symm)
  rw [e]

/-- The accumulator after stretch `k`: zero plus stretch 0, then each later stretch added when it is kept. -/
def accSpec (x : SX.Idx → EReal) (W : Fin 4096 → Fin 4096 → EReal) (r : Fin 8192) (cc : Fin 4096) : ℕ → EReal
  | 0 => 0 + partN x W r cc 0
  | k + 1 => if keeps (cc.val / 1024) (k + 1) then accSpec x W r cc k + partN x W r cc (k + 1) else accSpec x W r cc k

theorem tiled_eq_accSpec (x : SX.Idx → EReal) (W : Fin 4096 → Fin 4096 → EReal) (b : SB.Idx → EReal) (r : Fin 8192) (cc : Fin 4096) :
    tiled x W b r cc = accSpec x W r cc 3 + b (ix1 cc) := by
  unfold tiled
  simp only [accSpec, part_eq_partN]
  rfl

/-! ## Rows and columns of a grid point -/

/-- The array row that row `p` of point `n`'s blocks is, and the array column that column `q` is. -/
def rowOf (n : ℕ) (p : Fin 1024) : Fin 8192 := ⟨(1024 * (n / 16) + p.val) % 8192, Nat.mod_lt _ (by decide)⟩
def colOf (n : ℕ) (q : Fin 1024) : Fin 4096 := ⟨(1024 * ((n / 4) % 4) + q.val) % 4096, Nat.mod_lt _ (by decide)⟩

theorem rowOf_succ {n : ℕ} (h : (n + 1) % 4 ≠ 0) (p : Fin 1024) : rowOf (n + 1) p = rowOf n p :=
  Fin.ext (by show (1024 * ((n + 1) / 16) + p.val) % 8192 = (1024 * (n / 16) + p.val) % 8192; rw [show (n + 1) / 16 = n / 16 by omega])
theorem colOf_succ {n : ℕ} (h : (n + 1) % 4 ≠ 0) (q : Fin 1024) : colOf (n + 1) q = colOf n q :=
  Fin.ext (by show (1024 * (((n + 1) / 4) % 4) + q.val) % 4096 = (1024 * ((n / 4) % 4) + q.val) % 4096; rw [show (n + 1) / 4 = n / 4 by omega])
theorem rowOf_pred {n : ℕ} (h : n % 4 ≠ 0) (p : Fin 1024) : rowOf (n - 1) p = rowOf n p :=
  Fin.ext (by show (1024 * ((n - 1) / 16) + p.val) % 8192 = (1024 * (n / 16) + p.val) % 8192; rw [show (n - 1) / 16 = n / 16 by omega])
theorem colOf_pred {n : ℕ} (h : n % 4 ≠ 0) (q : Fin 1024) : colOf (n - 1) q = colOf n q :=
  Fin.ext (by show (1024 * (((n - 1) / 4) % 4) + q.val) % 4096 = (1024 * ((n / 4) % 4) + q.val) % 4096; rw [show (n - 1) / 4 = n / 4 by omega])
theorem colOf_block {n : ℕ} (q : Fin 1024) : (colOf n q).val / 1024 = (n / 4) % 4 := by
  show (1024 * ((n / 4) % 4) + q.val) % 4096 / 1024 = (n / 4) % 4
  have := q.isLt
  rw [Nat.mod_eq_of_lt (show 1024 * ((n / 4) % 4) + q.val < 4096 by omega)]; omega

/-- The product of point `t`'s two staged blocks at `(p, q)` is stretch `t % 4`'s partial sum for that row and column. -/
theorem prod_eq_partN (t : Fin cfg0.N) (p q : Fin 1024) :
    (∑ kk : Fin 1024, bX m c t (ix2 p kk) * bW m c t (ix2 kk q))
      = partN (aX m c) (aW m c) (rowOf t.val p) (colOf t.val q) (t.val % 4) := by
  unfold partN
  refine Finset.sum_congr rfl fun kk _ => ?_
  have a0 : bX m c t (ix2 p kk) = _ := iblk0_eq m c t p kk
  have a1 : bW m c t (ix2 kk q) = _ := iblk1_eq m c t kk q
  rw [a0, a1]
  have ht := tlt t
  have e0 : (⟨1024 * (t.val / 16) + p.val, by omega⟩ : Fin 8192) = rowOf t.val p :=
    Fin.ext (by show 1024 * (t.val / 16) + p.val = (1024 * (t.val / 16) + p.val) % 8192; exact (Nat.mod_eq_of_lt (by omega)).symm)
  have e1 : (⟨1024 * (t.val % 4) + kk.val, by omega⟩ : Fin 4096) = ⟨(1024 * (t.val % 4) + kk.val) % 4096, Nat.mod_lt _ (by decide)⟩ :=
    Fin.ext (by show 1024 * (t.val % 4) + kk.val = (1024 * (t.val % 4) + kk.val) % 4096; exact (Nat.mod_eq_of_lt (by omega)).symm)
  have e2 : (⟨1024 * ((t.val / 4) % 4) + q.val, by omega⟩ : Fin 4096) = colOf t.val q :=
    Fin.ext (by show 1024 * ((t.val / 4) % 4) + q.val = (1024 * ((t.val / 4) % 4) + q.val) % 4096; exact (Nat.mod_eq_of_lt (by omega)).symm)
  rw [e0, e1, e2]

/-! ## The accumulator at every point -/

/-- After the body at point `n` the accumulator holds, at `(p, q)`, the accumulation through stretch `n % 4` for the
    point's row and column: by induction on the point, a first stretch starting afresh and a later one continuing. -/
theorem accAt_apply : ∀ (n : ℕ) (hn : n < cfg0.N) (p q : Fin 1024),
    accAt m c n hn (ix2 p q) = accSpec (aX m c) (aW m c) (rowOf n p) (colOf n q) (n % 4) := by
  intro n
  induction n with
  | zero =>
    intro hn p q
    rw [accAt_first m c ⟨0, hn⟩ (Nat.zero_mod _), accOf_atFirst, pay2_apply, pay1_apply, prod_eq_partN]
    rfl
  | succ n ih =>
    intro hn p q
    by_cases h0 : (n + 1) % 4 = 0
    · rw [accAt_first m c ⟨n + 1, hn⟩ h0, accOf_atFirst, pay2_apply, pay1_apply, prod_eq_partN]
      show 0 + partN _ _ _ _ ((n + 1) % 4) = accSpec _ _ _ _ ((n + 1) % 4)
      rw [h0]; rfl
    · have hk : (n + 1) % 4 = n % 4 + 1 := by omega
      have hcol : (colOf (n + 1) q).val / 1024 = ((n + 1) / 4) % 4 := colOf_block q
      have hkeep : keeps ((colOf (n + 1) q).val / 1024) (n % 4 + 1) ↔ addsAt (n + 1) := by
        rw [hcol]; unfold keeps; show _ ↔ (2 ≤ ((n + 1) / 4) % 4 ∨ (n + 1) % 4 ≤ ((n + 1) / 4) % 4); rw [hk]
      have ihn := ih (Nat.lt_of_succ_lt hn) p q
      rw [← rowOf_succ h0, ← colOf_succ h0] at ihn
      by_cases ha : addsAt (n + 1)
      · have step : accAt m c (n + 1) hn (ix2 p q)
            = accAt m c n (Nat.lt_of_succ_lt hn) (ix2 p q) + partN (aX m c) (aW m c) (rowOf (n + 1) p) (colOf (n + 1) q) ((n + 1) % 4) := by
          by_cases h3 : (n + 1) % 4 = 3
          · rw [accAt_lastAdd m c ⟨n + 1, hn⟩ h0 ha h3, accOf_atLastAdd, pay2_apply, prod_eq_partN]; rfl
          · rw [accAt_add m c ⟨n + 1, hn⟩ h0 ha h3, accOf_atAdd, pay2_apply, prod_eq_partN]; rfl
        rw [step, ihn, hk]
        show _ = if keeps _ (n % 4 + 1) then _ else _
        rw [if_pos (hkeep.mpr ha)]
      · rw [accAt_skip m c ⟨n + 1, hn⟩ h0 ha]
        show accAt m c n _ (ix2 p q) = _
        rw [ihn, hk]
        show _ = if keeps _ (n % 4 + 1) then _ else _
        rw [if_neg (fun h => ha (hkeep.mp h))]

/-- At a last stretch the output's buffer holds, at `(p, q)`, the tiled accumulation of the point's row and column. -/
theorem outAt_apply (t : Fin cfg0.N) (h3 : t.val % 4 = 3) (p q : Fin 1024) :
    outAt m c t (ix2 p q) = tiled (aX m c) (aW m c) (aB m c) (rowOf t.val p) (colOf t.val q) := by
  have ht := tlt t
  have h0 : t.val % 4 ≠ 0 := by omega
  have hcol : (colOf t.val q).val / 1024 = (t.val / 4) % 4 := colOf_block q
  have hkeep : keeps ((colOf t.val q).val / 1024) 3 ↔ addsAt t.val := by
    rw [hcol]; unfold keeps; show _ ↔ (2 ≤ (t.val / 4) % 4 ∨ t.val % 4 ≤ (t.val / 4) % 4); rw [h3]
  have ihn := accAt_apply m c (t.val - 1) (Nat.lt_of_le_of_lt (Nat.sub_le _ _) t.isLt) p q
  rw [rowOf_pred h0, colOf_pred h0, show (t.val - 1) % 4 = 2 by omega] at ihn
  have e2 : (iblk m c 2 t : Vec Ideal S1x1024 .f32) (ix2 (0 : Fin 1) q) = aB m c (ix1 (colOf t.val q)) := by
    rw [iblk2_eq m c t q]
    have : (⟨1024 * ((t.val / 4) % 4) + q.val, by omega⟩ : Fin 4096) = colOf t.val q :=
      Fin.ext (by show 1024 * ((t.val / 4) % 4) + q.val = (1024 * ((t.val / 4) % 4) + q.val) % 4096; exact (Nat.mod_eq_of_lt (by omega)).symm)
    rw [this]
  rw [tiled_eq_accSpec]
  show outAt m c t (ix2 p q) = accSpec _ _ _ _ (2 + 1) + _
  unfold outAt
  rw [dif_pos h3]
  by_cases ha : addsAt t.val
  · rw [dif_pos ha, outOf_atLastAdd, pay3_apply, pay2_apply, prod_eq_partN, e2]
    show accAt m c (t.val - 1) _ (ix2 p q) + _ + _ = (if keeps _ (2 + 1) then _ else _) + _
    rw [if_pos (hkeep.mpr ha), ihn, h3]
  · rw [dif_neg ha, outOf_atLastSkip, pay3_apply, e2]
    show accAt m c (t.val - 1) _ (ix2 p q) + _ = (if keeps _ (2 + 1) then _ else _) + _
    rw [if_neg (fun h => ha (hkeep.mp h)), ihn]

/-! ## From the blocks to the result array -/

/-- The result array: every entry the tiled accumulation of its row and column. -/
def Gk : SX.Idx → EReal := fun i => tiled (aX m c) (aW m c) (aB m c) (i 0) (i 1)

/-- The output window's block at point `t` is block `(t / 16, (t / 4) % 4)` of the result. -/
theorem idx_facts3 : ∀ t : Fin cfg0.N, win0_3.index t (0 : Fin 2) = t.val / 16 ∧ win0_3.index t (1 : Fin 2) = (t.val / 4) % 4 :=
  (by decide +kernel : ∀ t : Fin grid0.N, win0_3.index t (0 : Fin 2) = t.val / 16 ∧ win0_3.index t (1 : Fin 2) = (t.val / 4) % 4)

/-- What a last stretch writes back is its block of the result array. -/
theorem flushed_eq (t : Fin cfg0.N) (hf : (cfg0.win 3).flush t = true) :
    (dats m 0 c).flushed 3 t = ((cfg0.win 3).blk t).view.read (Elt Ideal) (Gk m c) := by
  have h3 : t.val % 4 = 3 := (flush0_3 t).mp hf
  show (cfg0.win 3).cut (grid0.coords t) ((dats m 0 c).after 3 t) = _
  rw [after3]
  funext y
  obtain ⟨p, q, rfl⟩ : ∃ (p q : Fin 1024), y = ix2 p q := ⟨y 0, y 1, eq_ix2 y⟩
  rw [View.read_apply]
  show outAt m c t (ix2 p q) = Gk m c (((cfg0.win 3).blk t).view.emb (ix2 p q))
  rw [outAt_apply m c t h3]
  unfold Gk
  obtain ⟨e0, e1⟩ := idx_facts3 t
  have ht := tlt t
  have r0 : rowOf t.val p = (((cfg0.win 3).blk t).view.emb (ix2 p q)) 0 :=
    Fin.ext (by show (1024 * (t.val / 16) + p.val) % 8192 = win0_3.index t (0 : Fin 2) * 1024 + 1 * p.val; rw [e0, Nat.mod_eq_of_lt (show 1024 * (t.val / 16) + p.val < 8192 by omega)]; omega)
  have r1 : colOf t.val q = (((cfg0.win 3).blk t).view.emb (ix2 p q)) 1 :=
    Fin.ext (by show (1024 * ((t.val / 4) % 4) + q.val) % 4096 = win0_3.index t (1 : Fin 2) * 1024 + 1 * q.val; rw [e1, Nat.mod_eq_of_lt (show 1024 * ((t.val / 4) % 4) + q.val < 4096 by omega)]; omega)
  rw [r0, r1]

/-- An index of the result is in point `t`'s block iff each coordinate is in the block's range on its axis. -/
theorem mem_blk3 (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v9).slice (win0_3.rect t)).set ↔ _
  rw [View.set_slice_whole, Rect.mem_set_unit]
  exact Iff.rfl

/-- Every entry of the result lies in the block some last stretch writes back: row block `r / 1024`, column block
    `cc / 1024`, stretch 3. -/
theorem cover (i : S8192x4096.Idx) : ∃ t : Fin cfg0.N, (cfg0.win 3).flush t = true ∧ i ∈ ((cfg0.win 3).blk t).view.set := by
  have hi0 : (i 0).val < 8192 := idx2_lt0 i
  have hi1 : (i 1).val < 4096 := idx2_lt1 i
  have hN : cfg0.N = 128 := N_0
  have hlt : 16 * ((i 0).val / 1024) + 4 * ((i 1).val / 1024) + 3 < cfg0.N := by omega
  obtain ⟨e0, e1⟩ := idx_facts3 ⟨16 * ((i 0).val / 1024) + 4 * ((i 1).val / 1024) + 3, hlt⟩
  refine ⟨⟨16 * ((i 0).val / 1024) + 4 * ((i 1).val / 1024) + 3, hlt⟩, (flush0_3 _).mpr (by show (16 * ((i 0).val / 1024) + 4 * ((i 1).val / 1024) + 3) % 4 = 3; omega), ?_⟩
  rw [mem_blk3]
  intro a
  match a with
  | ⟨0, _⟩ =>
    show win0_3.index _ (0 : Fin 2) * 1024 ≤ (i 0).val ∧ (i 0).val < win0_3.index _ (0 : Fin 2) * 1024 + 1024
    rw [e0]; show (16 * ((i 0).val / 1024) + 4 * ((i 1).val / 1024) + 3) / 16 * 1024 ≤ (i 0).val ∧ (i 0).val < (16 * ((i 0).val / 1024) + 4 * ((i 1).val / 1024) + 3) / 16 * 1024 + 1024
    omega
  | ⟨1, _⟩ =>
    show win0_3.index _ (1 : Fin 2) * 1024 ≤ (i 1).val ∧ (i 1).val < win0_3.index _ (1 : Fin 2) * 1024 + 1024
    rw [e1]; show (16 * ((i 0).val / 1024) + 4 * ((i 1).val / 1024) + 3) / 4 % 4 * 1024 ≤ (i 1).val ∧ (i 1).val < (16 * ((i 0).val / 1024) + 4 * ((i 1).val / 1024) + 3) / 4 % 4 * 1024 + 1024
    omega

/-- After the run the result buffer holds the result array. -/
theorem final : (dats m 0 c).arrAt 3 cfg0.N = Gk m c :=
  (dats m 0 c).arrAt_eq_of_cover 3 (Gk m c) (fun t hf => flushed_eq m c t hf) (cover)

/-- The kernel's run, read: the result buffer ends at the result array and the arguments end as launched. -/
theorem run (ρ : Dev nD → PrngReg) : θ_run defs (onTc (τ := τ) (main (F := Ideal))) ⟨m, fun _ => 0, ρ⟩ fun r => ∀ c : Dev nD,
      r.2.mem ((c.tc : Thread nD τ).loc main_v9) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (final m c), arg_kept m r h c _ (.inl rfl), arg_kept m r h c _ (.inr (.inl rfl)),
    arg_kept m r h c _ (.inr (.inr (.inl rfl))), arg_kept m r h c _ (.inr (.inr (.inr (.inl rfl)))), arg_kept m r h c _ (.inr (.inr (.inr (.inr rfl))))⟩) (run_main m ρ)

end Cert.KernelIdeal.Val

end
-- ==== Proof.RefSide.lean ====
/-
  The reference computes the specification.

  The reference pads the three weight blocks below with zero, lays them side by side, multiplies the activations by
  the result, and adds the bias row broadcast over the rows. Read at entry `(r, c)`: the product is the sum over the
  contraction position `k` of the activation at `(r, k)` times the assembled weight at `(k, c)`, the assembled weight
  is the specification's matrix with padding value zero, and the broadcast bias is the bias at `c`. That is the
  specification's array `G`.
-/
import proofs.«158718_j39599598469144_2_alg».proof.Proof.Spec
import proofs.«158718_j39599598469144_2_alg».proof.Proof.WeightRead
import proofs.«158718_j39599598469144_2_alg».proof.Proof.Gen.ReferenceIdeal.Read

noncomputable section

open scoped BigOperators

namespace Cert.RefSide

open Idealize.ShloMosaic Idealize.ShloMosaic.ValueIdx Cert.ReferenceIdeal Cert.ReferenceIdeal.Read Cert.Spec

/-- The reference's assembled weights at entry `(k, c)` are the specification's matrix with zero padding. -/
theorem weights_apply (x1 : (⟨S1024x1024, .f32⟩ : BufTy).Contents (Elt Ideal))
    (x2 : (⟨S2048x1024, .f32⟩ : BufTy).Contents (Elt Ideal)) (x3 : (⟨S4096x2048, .f32⟩ : BufTy).Contents (Elt Ideal))
    (k c : Fin 4096) :
    val_main_v3 (F := Ideal) x1 x2 x3 (ix2 k c) = Wmat x1 x2 x3 (0 : EReal) k c := by
  unfold val_main_v3 val_main_v0 val_main_v1 val_main_v2
  exact concat_pad_apply x1 x2 x3 _ _ _ (0 : EReal) _ _ _ _ _ (pad_zero_f32 ix0) (pad_zero_f32 ix0)
    (pad_zero_f32 ix0) k c

/-- The reference's result is the specification's array. -/
theorem ref_eq_G (x0 : (⟨S8192x4096, .f32⟩ : BufTy).Contents (Elt Ideal))
    (x1 : (⟨S1024x1024, .f32⟩ : BufTy).Contents (Elt Ideal)) (x2 : (⟨S2048x1024, .f32⟩ : BufTy).Contents (Elt Ideal))
    (x3 : (⟨S4096x2048, .f32⟩ : BufTy).Contents (Elt Ideal)) (x4 : (⟨S4096, .f32⟩ : BufTy).Contents (Elt Ideal)) :
    val_main_v7 (F := Ideal) x0 x1 x2 x3 x4 = G x0 x1 x2 x3 x4 := by
  funext i
  obtain ⟨r, c, rfl⟩ : ∃ (r : Fin 8192) (c : Fin 4096), i = ix2 r c := ⟨i 0, i 1, eq_ix2 i⟩
  have hl : ∀ k : Fin 4096, lidx_main_v4 (ix2 r c) k = ix2 r k := fun k => funext fun a => by
    match a with
    | ⟨0, _⟩ => rfl
    | ⟨1, _⟩ => rfl
  have hr : ∀ k : Fin 4096, ridx_main_v4 (ix2 r c) k = ix2 k c := fun k => funext fun a => by
    match a with
    | ⟨0, _⟩ => rfl
    | ⟨1, _⟩ => rfl
  have hb : idx_main_v5 (idx_main_v6 (ix2 r c)) = ix1 c := funext fun a => by
    match a with
    | ⟨0, _⟩ => rfl
  rw [val_main_v7_apply, val_main_v4_apply, val_main_v6_apply, val_main_v5_apply, hb, Ideal.addf_def]
  show (∑ k : Fin 4096, x0 (lidx_main_v4 (ix2 r c) k) * val_main_v3 (F := Ideal) x1 x2 x3 (ridx_main_v4 (ix2 r c) k))
      + x4 (ix1 c) = (∑ k : Fin 4096, x0 (ix2 r k) * Wmat x1 x2 x3 (0 : EReal) k c) + x4 (ix1 c)
  refine congrArg (· + x4 (ix1 c)) (Finset.sum_congr rfl fun k _ => ?_)
  rw [hl, hr, weights_apply]

end Cert.RefSide

end
-- ==== Proof.Tiling.lean ====
/-
  The dense product equals the tiled accumulation.

  The contraction axis of 4096 positions is cut into four stretches of 1024, so the sum over the axis is the sum of the
  four partial sums. A stretch `s` is left out by the tiled form exactly when the column's block `j = c / 1024` is
  below 2 and `s` is above `j`; then every row `1024 s + q` of the stretch lies below the block that column `c`
  reads, so every weight met there is the padding zero, every product is zero, and the partial sum is zero. Adding a
  zero changes nothing, so leaving the stretch out gives the same value. No finiteness of the activations is needed:
  in the extended reals `a * 0 = 0` for every `a`, and addition is commutative and associative.
-/
import proofs.«158718_j39599598469144_2_alg».proof.Proof.Spec

noncomputable section

open scoped BigOperators

namespace Cert.Spec

open Idealize.ShloMosaic Idealize.ShloMosaic.ValueIdx

/-- Position `1024 s + q` of the contraction axis, from the stretch `s` and the place `q` inside it. -/
def stretchEquiv : Fin 4 × Fin 1024 ≃ Fin 4096 where
  toFun p := ⟨1024 * p.1.val + p.2.val, by omega⟩
  invFun k := (⟨k.val / 1024, by omega⟩, ⟨k.val % 1024, by omega⟩)
  left_inv p := by
    refine Prod.ext (Fin.ext ?_) (Fin.ext ?_)
    · show (1024 * p.1.val + p.2.val) / 1024 = p.1.val
      omega
    · show (1024 * p.1.val + p.2.val) % 1024 = p.2.val
      omega
  right_inv k := by
    refine Fin.ext ?_
    show 1024 * (k.val / 1024) + k.val % 1024 = k.val
    omega

/-- A sum over the 4096 positions is the sum over the four stretches of the sums over each stretch. -/
theorem sum_four_stretches {M : Type} [AddCommMonoid M] (f : Fin 4096 → M) :
    ∑ k : Fin 4096, f k
      = ∑ s : Fin 4, ∑ q : Fin 1024, f (⟨1024 * s.val + q.val, by omega⟩ : Fin 4096) := by
  rw [← Equiv.sum_comp stretchEquiv f, Fintype.sum_prod_type]
  rfl

/-- Below the block a column reads, the assembled weights are the padding value: for a column of block `j < 2`
    and a row of a stretch `s > j`. -/
theorem Wmat_eq_pad {α : Type} (w0 : SW0.Idx → α) (w1 : SW1.Idx → α) (w2 : SW2.Idx → α) (z : α)
    (k c : Fin 4096) (s : ℕ) (hks : 1024 * s ≤ k.val) (hn : ¬keeps (c.val / 1024) s) :
    Wmat w0 w1 w2 z k c = z := by
  unfold keeps at hn
  unfold Wmat
  by_cases h0 : c.val < 1024
  · rw [dif_pos h0, dif_neg (by omega)]
  · rw [dif_neg h0]
    by_cases h1 : c.val < 2048
    · rw [dif_pos h1, dif_neg (by omega)]
    · exact absurd (Or.inl (by omega)) hn

/-- The partial sum over a stretch that the tiled form leaves out is zero. -/
theorem part_eq_zero (x : SX.Idx → EReal) (w0 : SW0.Idx → EReal) (w1 : SW1.Idx → EReal) (w2 : SW2.Idx → EReal)
    (r : Fin 8192) (c : Fin 4096) (s : Fin 4) (n : ℕ) (hs : s.val = n) (hn : ¬keeps (c.val / 1024) n) :
    part x (Wmat w0 w1 w2 0) r c s = 0 := by
  unfold part
  refine Finset.sum_eq_zero fun q _ => ?_
  rw [Wmat_eq_pad w0 w1 w2 0 _ c n (by show 1024 * n ≤ 1024 * s.val + q.val; omega) hn, mul_zero]

/-- Adding a term that is zero whenever it is left out: the conditional step is the unconditional one. -/
theorem keep_step (p : Prop) [Decidable p] (a t : EReal) (h : ¬p → t = 0) :
    (if p then a + t else a) = a + t := by
  by_cases hp : p
  · rw [if_pos hp]
  · rw [if_neg hp, h hp, add_zero]

/-- Entry `(r, c)` of the dense product with the assembled weights plus the bias is the tiled accumulation. -/
theorem G_eq_tiled (x : SX.Idx → EReal) (w0 : SW0.Idx → EReal) (w1 : SW1.Idx → EReal) (w2 : SW2.Idx → EReal)
    (b : SB.Idx → EReal) (r : Fin 8192) (c : Fin 4096) :
    G x w0 w1 w2 b (ix2 r c) = tiled x (Wmat w0 w1 w2 0) b r c := by
  have hsum : (∑ k : Fin 4096, x (ix2 r k) * Wmat w0 w1 w2 0 k c)
      = part x (Wmat w0 w1 w2 0) r c 0 + part x (Wmat w0 w1 w2 0) r c 1
        + part x (Wmat w0 w1 w2 0) r c 2 + part x (Wmat w0 w1 w2 0) r c 3 := by
    rw [sum_four_stretches, Fin.sum_univ_four]
    rfl
  have e1 : ∀ a : EReal, (if keeps (c.val / 1024) 1 then a + part x (Wmat w0 w1 w2 0) r c 1 else a)
      = a + part x (Wmat w0 w1 w2 0) r c 1 :=
    fun a => keep_step _ a _ (part_eq_zero x w0 w1 w2 r c 1 1 rfl)
  have e2 : ∀ a : EReal, (if keeps (c.val / 1024) 2 then a + part x (Wmat w0 w1 w2 0) r c 2 else a)
      = a + part x (Wmat w0 w1 w2 0) r c 2 :=
    fun a => keep_step _ a _ (part_eq_zero x w0 w1 w2 r c 2 2 rfl)
  have e3 : ∀ a : EReal, (if keeps (c.val / 1024) 3 then a + part x (Wmat w0 w1 w2 0) r c 3 else a)
      = a + part x (Wmat w0 w1 w2 0) r c 3 :=
    fun a => keep_step _ a _ (part_eq_zero x w0 w1 w2 r c 3 3 rfl)
  show (∑ k : Fin 4096, x (ix2 r k) * Wmat w0 w1 w2 0 k c) + b (ix1 c) = tiled x (Wmat w0 w1 w2 0) b r c
  unfold tiled
  dsimp only
  rw [e1, e2, e3, hsum, zero_add]

end Cert.Spec

end
-- ==== Proof.lean ====
/-
  The certificate's claims assembled.

  Both printed kernels run the same tiled region after the same host preparation; each program's frame is the run of
  that region (module Frame for the idealized kernel, KFrame for the kernel as printed) with the argument buffers read
  back.  The reference has no region: its frame is its run with the result dropped.  The idealization rewrote no
  operation, so there is nothing to preserve.  For the value claim see module Value (the kernel's result), RefSide (the reference's) and Tiling (the two agree):
  over the extended reals the tiled accumulation that leaves out the structurally zero weight blocks is the dense
  product with the padded weights.
-/
import proofs.«158718_j39599598469144_2_alg».proof.Defs
import proofs.«158718_j39599598469144_2_alg».proof.Proof.Gen.Kernel
import proofs.«158718_j39599598469144_2_alg».proof.Proof.Gen.KernelIdeal
import proofs.«158718_j39599598469144_2_alg».proof.Proof.Gen.ReferenceIdeal
import proofs.«158718_j39599598469144_2_alg».proof.Proof.Gen.ReferenceIdeal.Run
import proofs.«158718_j39599598469144_2_alg».proof.Proof.Gen.ReferenceIdeal.Read
import proofs.«158718_j39599598469144_2_alg».proof.Proof.Gen.Pre_finite_inputs
import proofs.«158718_j39599598469144_2_alg».proof.Proof.Frame
import proofs.«158718_j39599598469144_2_alg».proof.Proof.KFrame
import proofs.«158718_j39599598469144_2_alg».proof.Proof.Value
import proofs.«158718_j39599598469144_2_alg».proof.Proof.RefSide
import proofs.«158718_j39599598469144_2_alg».proof.Proof.Tiling
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Fr.frame (F := Bits) m ρ

theorem frame_ki : @Cert.frame_KernelIdeal Cert.KernelIdeal.Gen.facts Cert.Pre_finite_inputs.Gen.facts :=
  fun m ρ _ => Cert.KernelIdeal.Fr.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result buffer ends at the tiled accumulation of every entry
    (module Value) and the reference's at the dense product with the padded weights plus the bias (its run, read one
    operation at a time).  The two are one array: cutting the contraction axis into four stretches and dropping the
    stretches whose weights are all padding zeros does not change a sum of extended reals, since a product with zero
    is zero whatever the other factor. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Val.Gk m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RefSide.ref_eq_G, (hagree c).1, (hagree c).2.1, (hagree c).2.2.1,
    (hagree c).2.2.2.1, (hagree c).2.2.2.2]
  funext i
  obtain ⟨r, cc, rfl⟩ : ∃ (r : Fin 8192) (cc : Fin 4096), i = ValueIdx.ix2 r cc := ⟨i 0, i 1, ValueIdx.eq_ix2 i⟩
  rw [Cert.Spec.G_eq_tiled]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
